-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x2048 .f32) (main_arg5 : FVec F S2048 .f32) (main_arg6 : FVec F S512 .f32) (main_arg7 : FVec F S512 .f32) (main_v13 : IVec S_ 1) (main_v16 : IVec S512x2048 1) : IVec S_ 1 :=
  let main_c_5 : IVec S_ 1 := constantI S_ 1 1#1
  let main_v17 : IVec S_ 1 := (fun x v => Host.reduce IntOp.andi x v reducesTo_S512x2048_S_d0_1 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_v33

def fn {F : FTy → Type} [FloatOps F] (main_arg0 : FVec F S16384x512 .f32) (main_arg1 : FVec F S16384x512 .f32) (main_arg2 : FVec F S16384x512 .f32) (main_arg3 : FVec F S512x2048 .f32) (main_arg4 : FVec F S512x2048 .f32) (main_arg5 : FVec F S2048 .f32) (main_arg6 : FVec F S512 .f32) (main_arg7 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x2048 .f32 := Host.absf main_arg3
  let main_cst_4 : FVec F S_ .f32 := constant S_ .f32 0x7F800000#32
  let main_v15 : FVec F S512x2048 .f32 := broadcastInDim S512x2048 ![] bcast_S_S512x2048 main_cst_4
  let main_v16 : IVec S512x2048 1 := cmpf .olt main_v14 main_v15
  fn_part1 (F := F) main_arg4 main_arg5 main_arg6 main_arg7 main_v13 main_v16
-- ==== Kernel.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S1024x2048 : Shape := ⟨2, ![1024, 2048]⟩
abbrev S1x2048 : Shape := ⟨2, ![1, 2048]⟩
abbrev S1x512 : Shape := ⟨2, ![1, 512]⟩
abbrev S512x512 : Shape := ⟨2, ![512, 512]⟩
abbrev S512x1024 : Shape := ⟨2, ![512, 1024]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S512, .f32⟩
  | .hbm, ⟨7, _⟩ => ⟨S512, .f32⟩
  | .hbm, ⟨8, _⟩ => ⟨S1024x2048, .f32⟩
  | .hbm, ⟨9, _⟩ => ⟨S1024x2048, .bf16⟩
  | .hbm, ⟨10, _⟩ => ⟨S1x2048, .f32⟩
  | .hbm, ⟨11, _⟩ => ⟨S1x512, .f32⟩
  | .hbm, ⟨12, _⟩ => ⟨S1x512, .f32⟩
  | .hbm, ⟨13, _⟩ => ⟨S16384x512, .f32⟩
  | .hbm, ⟨14, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x2048, .bf16⟩
  | .local _ .vmem, ⟨7, _⟩ => ⟨S1x2048, .f32⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S512x2048_S512x2048_S1024x2048_d0 : Shape.Concatenates [S512x2048, S512x2048] S1024x2048 0
  bitsLt_bf16_f32 : FTy.bits .bf16 < FTy.bits .f32
  shapeCasts_S2048_S1x2048 : S2048.ShapeCasts S1x2048
  shapeCasts_S512_S1x512 : S512.ShapeCasts S1x512
  inb_S512x512_S512x512_0_0 : ∀ a, (![0, 0] : Fin 2 → Nat) a + S512x512.size a ≤ S512x512.size a
  h_S512x512 : 0 < S512x512.numel
  concatenates_S512x512_S512x512_S512x1024_d1 : Shape.Concatenates [S512x512, S512x512] S512x1024 1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  reduces_S512x512_S512 : S512x512.Reduces [1] S512
  shapeCasts_S512_S512x1 : S512.ShapeCasts S512x1
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x1024_S1024x2048_S512x2048_1_0_0_1_n_n_wf : DotDims.WF S512x1024 S1024x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S16384x512.size a
  hwx0_8 : ∀ i : grid0.Coords, EltTy.bits .f32 = 32 ∨ (Rect.block (s := S16384x512) S512x512.size (cc0_transform_8 i) (hinb0_8 i)).WholeWords (EltTy.packing .f32)

variable [Facts₀]

def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5_0) S512x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_1) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x2048 : Shape := ⟨2, ![512, 2048]⟩
abbrev S2048 : Shape := ⟨1, ![2048]⟩
abbrev S512 : Shape := ⟨1, ![512]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S1x512 : Shape := ⟨2, ![1, 512]⟩

abbrev nBuf : Space → Nat
  | .hbm => 92
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x2048, .f32⟩
  | .hbm, ⟨4, _⟩ => ⟨S512x2048, .f32⟩
  | .hbm, ⟨5, _⟩ => ⟨S2048, .f32⟩
  | .hbm, ⟨6, _⟩ => ⟨S512, .f32⟩
  | .hbm, ⟨7, _⟩ => ⟨S512, .f32⟩
  | .hbm, ⟨8, _⟩ => ⟨S16384x2048, .f32⟩
  | .hbm, ⟨9, _⟩ => ⟨S16384x2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x512, .f32⟩
  | .hbm, ⟨15, _⟩ => ⟨S16384x512, .f32⟩
  | .hbm, ⟨16, _⟩ => ⟨S16384x512, .f32⟩
  | .hbm, ⟨17, _⟩ => ⟨S16384x512, .f32⟩
  | .hbm, ⟨18, _⟩ => ⟨S16384x512, .f32⟩
  | .hbm, ⟨19, _⟩ => ⟨S16384x512, .f32⟩
  | .hbm, ⟨20, _⟩ => ⟨S_, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384, .f32⟩
  | .hbm, ⟨50, _⟩ => ⟨S16384x1, .f32⟩
  | .hbm, ⟨51, _⟩ => ⟨S_, .f32⟩
  | .hbm, ⟨52, _⟩ => ⟨S16384x1, .f32⟩
  | .hbm, ⟨53, _⟩ => ⟨S16384x1, .f32⟩
  | .hbm, ⟨54, _⟩ => ⟨S_, .i32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x512, .f32⟩
  | .hbm, ⟨62, _⟩ => ⟨S16384x512, .f32⟩
  | .hbm, ⟨63, _⟩ => ⟨S16384x512, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x512, .f32⟩
  | .hbm, ⟨79, _⟩ => ⟨S16384x512, .f32⟩
  | .hbm, ⟨80, _⟩ => ⟨S_, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S16384x512, .f32⟩
  | .hbm, ⟨85, _⟩ => ⟨S16384x512, .f32⟩
  | .hbm, ⟨86, _⟩ => ⟨S1x512, .f32⟩
  | .hbm, ⟨87, _⟩ => ⟨S16384x512, .f32⟩
  | .hbm, ⟨88, _⟩ => ⟨S16384x512, .f32⟩
  | .hbm, ⟨89, _⟩ => ⟨S1x512, .f32⟩
  | .hbm, ⟨90, _⟩ => ⟨S16384x512, .f32⟩
  | .hbm, ⟨91, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_c : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_cst_0 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_v7 : Ref sig .tc := ⟨.hbm, 64, rfl⟩
abbrev main_call0_cst_1 : Ref sig .tc := ⟨.hbm, 65, rfl⟩
abbrev main_call0_v8 : Ref sig .tc := ⟨.hbm, 66, rfl⟩
abbrev main_call0_cst_2 : Ref sig .tc := ⟨.hbm, 67, rfl⟩
abbrev main_call0_v9 : Ref sig .tc := ⟨.hbm, 68, rfl⟩
abbrev main_call0_v10 : Ref sig .tc := ⟨.hbm, 69, rfl⟩
abbrev main_call0_v11 : Ref sig .tc := ⟨.hbm, 70, rfl⟩
abbrev main_call0_v12 : Ref sig .tc := ⟨.hbm, 71, rfl⟩
abbrev main_call0_cst_3 : Ref sig .tc := ⟨.hbm, 72, rfl⟩
abbrev main_call0_v13 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_7 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«141113_j65618510348829_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«141113_j65618510348829_2_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.LibJoinedRows.lean ====
/-
  Rows made of two parts, and a few operations read row by row, on the extended reals.

  `joined hC f g` is the row `f` (width `A`) followed by the row `g` (width `B`), indexed by the total width `C = A + B`.
  A sum over a joined row against a row of weights splits into the sum over the first part plus the sum over the
  second part (`sum_append_mul`): this is what makes a product computed as two partial products ("split K") equal to
  the product of the concatenated operand. It uses only commutativity and associativity of addition, so it holds on the
  extended reals without any finiteness assumption. Also here: an entry of a joined row in either part
  (`joined_left`, `joined_right`); two flat arrays concatenated, read at an index (`concat_flat`); a flat array made a
  one-column matrix (`col_apply`); and the logistic, the hyperbolic tangent and the product of tiles read entry by
  entry from a description of their operands by rows (`logistic_rows`, `tanh_rows`, `mul_rows`), for any extents.
-/
import Idealize.ShloMosaic.PureOps.Ideal
import Idealize.ShloMosaic.Lib.ValueIdx
import Idealize.ShloMosaic.Lib.Pipeline.Value
import Idealize.ShloMosaic.Lib.ValueLayout

noncomputable section

open scoped BigOperators

namespace Cert.JoinedRows

open Idealize.ShloMosaic Idealize.ShloMosaic.ValueIdx

/-- A row `f` followed by a row `g`, indexed by the total width. -/
abbrev joined {A B C : Nat} (hC : C = A + B) (f : Fin A → EReal) (g : Fin B → EReal) : Fin C → EReal :=
  fun k => Fin.append f g (Fin.cast hC k)

/-- A sum over a joined row splits: the first part against the first weights plus the second part against the rest. -/
theorem sum_append_mul {A B C : Nat} (hC : C = A + B) (f : Fin A → EReal) (g : Fin B → EReal) (w : Fin C → EReal) :
    ∑ k : Fin C, joined hC f g k * w k
      = (∑ k : Fin A, f k * w ⟨k.val, by omega⟩) + ∑ k : Fin B, g k * w ⟨A + k.val, by omega⟩ := by
  subst hC
  rw [Fin.sum_univ_add]
  congr 1
  · refine Finset.sum_congr rfl fun k _ => ?_
    show Fin.append f g (Fin.castAdd B k) * w (Fin.castAdd B k) = _
    rw [Fin.append_left]
    rfl
  · refine Finset.sum_congr rfl fun k _ => ?_
    show Fin.append f g (Fin.natAdd A k) * w (Fin.natAdd A k) = _
    rw [Fin.append_right]
    rfl

/-- An entry of a joined row in its first part. -/
theorem joined_left {A B C : Nat} (hC : C = A + B) (f : Fin A → EReal) (g : Fin B → EReal) (j : Fin C) (k : Fin A)
    (hj : j.val = k.val) : joined hC f g j = f k := by
  subst hC
  have e : Fin.cast rfl j = Fin.castAdd B k := Fin.ext hj
  show Fin.append f g (Fin.cast rfl j) = f k
  rw [e, Fin.append_left]

/-- An entry of a joined row in its second part. -/
theorem joined_right {A B C : Nat} (hC : C = A + B) (f : Fin A → EReal) (g : Fin B → EReal) (j : Fin C) (k : Fin B)
    (hj : j.val = A + k.val) : joined hC f g j = g k := by
  subst hC
  have e : Fin.cast rfl j = Fin.natAdd A k := Fin.ext hj
  show Fin.append f g (Fin.cast rfl j) = g k
  rw [e, Fin.append_right]

/-- Two flat arrays concatenated: entry `j` is the joined row at `j`. -/
theorem concat_flat {A B C : Nat} (hC : C = A + B) (Y : (⟨1, ![A]⟩ : Shape).Idx → EReal) (Z : (⟨1, ![B]⟩ : Shape).Idx → EReal)
    (h : Shape.Concatenates [(⟨1, ![A]⟩ : Shape), ⟨1, ![B]⟩] ⟨1, ![C]⟩ (0 : Fin 1)) (j : Fin C) :
    concatenate ⟨1, ![C]⟩ (0 : Fin 1) [⟨⟨1, ![A]⟩, Y⟩, ⟨⟨1, ![B]⟩, Z⟩] h (ix1 j)
      = joined hC (fun k => Y (ix1 k)) (fun k => Z (ix1 k)) j := by
  by_cases hj : j.val < A
  · have e1 := concatenate_pair_apply_left (0 : Fin 1) Y Z h (ix1 j) rfl (ix1 ⟨j.val, hj⟩)
      (fun b => by match b with | ⟨0, _⟩ => rfl)
    rw [e1]
    exact (joined_left hC (fun k => Y (ix1 k)) (fun k => Z (ix1 k)) j ⟨j.val, hj⟩ rfl).symm
  · have hjB : j.val - A < B := by have := j.isLt; omega
    have e1 := concatenate_pair_apply_right (0 : Fin 1) Y Z h (ix1 j) rfl rfl (ix1 ⟨j.val - A, hjB⟩)
      (fun b hb => by match b with | ⟨0, _⟩ => exact absurd rfl hb)
      (by show (j.val - A) + A = j.val; omega)
    rw [e1]
    exact (joined_right hC (fun k => Y (ix1 k)) (fun k => Z (ix1 k)) j ⟨j.val - A, hjB⟩ (by show j.val = A + (j.val - A); omega)).symm

/-- A flat array made a one-column matrix reads, at `(r, u)`, the array at `r`. -/
theorem col_apply {α : Type} {a : Nat} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

section Rows
variable {M N : Nat}

/-- The logistic of a tile, entry by entry. -/
theorem logistic_rows (Y : FVec Ideal ⟨2, ![M, N]⟩ .f32) (yr : Fin M → Fin N → EReal) (hY : ∀ p q, Y (ix2 p q) = yr p q) :
    ∀ p q, logistic Y (ix2 p q) = Ideal.logistic (yr p q) := fun p q => congrArg Ideal.logistic (hY p q)

/-- The hyperbolic tangent of a tile, entry by entry. -/
theorem tanh_rows (Y : FVec Ideal ⟨2, ![M, N]⟩ .f32) (yr : Fin M → Fin N → EReal) (hY : ∀ p q, Y (ix2 p q) = yr p q) :
    ∀ p q, tanh Y (ix2 p q) = Ideal.tanh (yr p q) := fun p q => congrArg Ideal.tanh (hY p q)

/-- The product of two tiles, entry by entry. -/
theorem mul_rows (Y Z : FVec Ideal ⟨2, ![M, N]⟩ .f32) (yr zr : Fin M → Fin N → EReal)
    (hY : ∀ p q, Y (ix2 p q) = yr p q) (hZ : ∀ p q, Z (ix2 p q) = zr p q) :
    ∀ p q, mulf Y Z (ix2 p q) = yr p q * zr p q := fun p q => by rw [mulf_apply, hY p q, hZ p q]

end Rows

end Cert.JoinedRows

end
-- ==== Proof.RowSpec.lean ====
/-
  One row of an LSTM cell followed by a layer normalisation, on the extended reals, in the two spellings
  that are to be compared.

  A row has 512 input features `xr`, 512 previous hidden features `hr` and 512 previous cell entries `cr`.
  The 2048 gate pre-activations of the row are `gate … n = (∑ₖ xr k · wi k n + ∑ₖ hr k · wh k n) + b n`; columns
  0–511 feed the input gate, 512–1023 the forget gate, 1024–1535 the candidate and 1536–2047 the output gate.
  With `σ` the logistic function the new cell entry is `c j = σ(f j) · cr j + σ(i j) · tanh (g j)` and the
  hidden entry `h j = σ(o j) · tanh (c j)`; the row `h` is then normalised: `(h j − μ) · (v + ε)^(-1/2) · lw j + lb j`
  with `μ` the mean and `v` the variance of the row.

  Spelling R (suffix `R`) writes `σ z = 1 / (1 + e^(−z))`, the mean as `(0 + ∑ h) / 512` and the variance as the
  mean of the squared deviations, `(0 + ∑ (h − μ)²) / 512`. Spelling K (suffix `K`) writes
  `σ z = ½ · (1 + tanh (½ · z))`, the mean as `(∑ h) · (1/512)` and the variance as `(∑ h²) · (1/512) − μ²`.
  The float words that occur are kept as the words they are: ½, 1, 0, 512, 1/512 and the small ε.
-/
import Idealize.ShloMosaic.PureOps.Ideal

noncomputable section

open scoped BigOperators

namespace Cert.LstmRow

open Idealize.ShloMosaic

/-- The word of ½. -/
abbrev wHalf : EReal := Ideal.ofBits .f32 0x3F000000#32
/-- The word of 1. -/
abbrev wOne : EReal := Ideal.ofBits .f32 0x3F800000#32
/-- The word of 0. -/
abbrev wZero : EReal := Ideal.ofBits .f32 0x00000000#32
/-- The word of 512. -/
abbrev w512 : EReal := Ideal.ofBits .f32 0x44000000#32
/-- The word of 1/512 (a power of two, so exact). -/
abbrev wInv512 : EReal := Ideal.ofBits .f32 0x3B000000#32
/-- The word of the small ε added to the variance (the same word in both spellings; never evaluated). -/
abbrev wEps : EReal := Ideal.ofBits .f32 0x3727C5AC#32

/-- Column `o + j` of the 2048 gate pre-activations: the `j`-th entry of the gate that starts at column `o`. -/
abbrev col (o : Nat) (ho : o + 512 ≤ 2048) (j : Fin 512) : Fin 2048 := ⟨o + j.val, by omega⟩

/-- The gate pre-activations of a row: the two partial products added, then the bias. -/
def gate (xr hr : Fin 512 → EReal) (wi wh : Fin 512 → Fin 2048 → EReal) (b : Fin 2048 → EReal) (n : Fin 2048) : EReal :=
  ((∑ k : Fin 512, xr k * wi k n) + ∑ k : Fin 512, hr k * wh k n) + b n

/-- The logistic function written `1 / (1 + e^(−z))`. -/
def sgR (z : EReal) : EReal := Ideal.div wOne (wOne + Ideal.exp (-z))
/-- The logistic function written `½ · (1 + tanh (½ · z))`. -/
def sgK (z : EReal) : EReal := wHalf * (wOne + Ideal.tanh (wHalf * z))

/-- The new cell entry, spelling R. -/
def cellR (g : Fin 2048 → EReal) (cr : Fin 512 → EReal) (j : Fin 512) : EReal :=
  sgR (g (col 512 (by omega) j)) * cr j + sgR (g (col 0 (by omega) j)) * Ideal.tanh (g (col 1024 (by omega) j))
/-- The hidden entry before normalisation, spelling R. -/
def hidR (g : Fin 2048 → EReal) (cr : Fin 512 → EReal) (j : Fin 512) : EReal :=
  sgR (g (col 1536 (by omega) j)) * Ideal.tanh (cellR g cr j)
/-- The new cell entry, spelling K. -/
def cellK (g : Fin 2048 → EReal) (cr : Fin 512 → EReal) (j : Fin 512) : EReal :=
  sgK (g (col 512 (by omega) j)) * cr j + sgK (g (col 0 (by omega) j)) * Ideal.tanh (g (col 1024 (by omega) j))
/-- The hidden entry before normalisation, spelling K. -/
def hidK (g : Fin 2048 → EReal) (cr : Fin 512 → EReal) (j : Fin 512) : EReal :=
  sgK (g (col 1536 (by omega) j)) * Ideal.tanh (cellK g cr j)

/-- The mean of a row, spelling R. -/
def meanR (hh : Fin 512 → EReal) : EReal := Ideal.div (wZero + ∑ j : Fin 512, hh j) w512
/-- The variance of a row as the mean of the squared deviations, spelling R. -/
def varR (hh : Fin 512 → EReal) : EReal :=
  Ideal.div (wZero + ∑ j : Fin 512, (hh j - meanR hh) * (hh j - meanR hh)) w512
/-- The normalised row, spelling R. -/
def normR (hh lw lb : Fin 512 → EReal) (j : Fin 512) : EReal :=
  (hh j - meanR hh) * Ideal.rsqrt (varR hh + wEps) * lw j + lb j

/-- The mean of a row, spelling K. -/
def meanK (hh : Fin 512 → EReal) : EReal := (∑ j : Fin 512, hh j) * wInv512
/-- The variance of a row as the mean of the squares less the squared mean, spelling K. -/
def varK (hh : Fin 512 → EReal) : EReal := (∑ j : Fin 512, hh j * hh j) * wInv512 - meanK hh * meanK hh
/-- The normalised row, spelling K. -/
def normK (hh lw lb : Fin 512 → EReal) (j : Fin 512) : EReal :=
  (hh j - meanK hh) * Ideal.rsqrt (varK hh + wEps) * lw j + lb j

end Cert.LstmRow

end
-- ==== Proof.KernelRows.lean ====
/-
  The tiled unit's arithmetic read row by row, on the extended reals.

  One block of 512 rows enters the unit with its input features `P0`, previous hidden features `P1` and previous cell
  entries `P4`; the stacked weights `P2` (1024 × 2048: the input weights above the recurrent ones), the bias row `P3` and
  the normalisation's weight and bias rows `P5`, `P6` are the same for every block. Row `p` of the block is treated on
  its own: the row `[x | h]` of width 1024 times the stacked weights plus the bias gives the row's 2048 gate
  pre-activations (`gateK`); the logistic function, written with a hyperbolic tangent, and the hyperbolic tangent turn them
  into the new cell entry and the hidden entry (`cellK`, `hidK`); the row of hidden entries is normalised with its mean
  and the mean of its squares (`normK`). Splitting the sum over the joined row into its two halves shows that the gate
  pre-activations are those of the two separate products (`gate`).
-/
import proofs.«141113_j65618510348829_2_alg».proof.Proof.Gen.KernelIdeal.Skeleton
import proofs.«141113_j65618510348829_2_alg».proof.Proof.LibTileRows
import proofs.«141113_j65618510348829_2_alg».proof.Proof.LibRowLayer
import proofs.«141113_j65618510348829_2_alg».proof.Proof.LibJoinedRows
import proofs.«141113_j65618510348829_2_alg».proof.Proof.RowSpec

noncomputable section

open scoped BigOperators

namespace Cert.KernelIdeal.Rows

open Cert.KernelIdeal Cert.KernelIdeal.Gen Idealize.ShloMosaic Idealize.ShloMosaic.ValueIdx Cert.LstmRow

/-! ## The gate pre-activations -/

/-- The gate pre-activations of a row as the unit computes them: the joined row `[xr | hr]` times the stacked weights,
    plus the bias. -/
def gateK (xr hr : Fin 512 → EReal) (w : Fin 1024 → Fin 2048 → EReal) (b : Fin 2048 → EReal) (n : Fin 2048) : EReal :=
  (∑ k : Fin 1024, Fin.append xr hr (Fin.cast (by norm_num : 1024 = 512 + 512) k) * w k n) + b n

/-- The unit's product contracts the columns of the joined rows against the rows of the stacked weights. -/
theorem plain : Cert.PlainDot.IsPlain dot_S512x1024_S1024x2048_S512x2048_1_0_0_1_n_n := ⟨rfl, rfl, rfl, rfl, rfl, rfl⟩

/-- Entry `(p, n)` of the unit's gate pre-activations: the two blocks set side by side, the product into a zero
    accumulator as a sum over the joined row, the bias row spread over the rows. -/
theorem pay3_rows (P0 P1 : FVec Ideal S512x512 .f32) (P2 : FVec Ideal S1024x2048 .bf16) (P3 : FVec Ideal S1x2048 .f32)
    (p : Fin 512) (n : Fin 2048) :
    k0_pay3 (F := Ideal) P0 P1 P2 P3 (ix2 p n)
      = gateK (fun k => P0 (ix2 p k)) (fun k => P1 (ix2 p k)) (fun k q => P2 (ix2 k q)) (fun q => P3 (ix2 (0 : Fin 1) q)) n := by
  unfold k0_pay3 gateK
  exact Cert.TileRows.bias_rows _ P3 _ _ _
    (Cert.TileRows.mm_rows _ plain none _ P2 _ _
      (Cert.TileRows.concat_rows (by norm_num : 512 + 512 = 1024) _ _ _ (fun p k => P0 (ix2 p k)) (fun p k => P1 (ix2 p k))
        (fun _ _ => rfl) (fun _ _ => rfl))) p n

/-- With the stacked weights' upper half the input weights and their lower half the recurrent weights, the sum over the
    joined row is the sum of the two partial products: the unit's gate pre-activations are `gate`. -/
theorem gateK_eq_gate (xr hr : Fin 512 → EReal) (w : Fin 1024 → Fin 2048 → EReal) (wi wh : Fin 512 → Fin 2048 → EReal)
    (b : Fin 2048 → EReal)
    (hwi : ∀ (k : Fin 512) (n : Fin 2048), w ⟨k.val, by omega⟩ n = wi k n)
    (hwh : ∀ (k : Fin 512) (n : Fin 2048), w ⟨512 + k.val, by omega⟩ n = wh k n) (n : Fin 2048) :
    gateK xr hr w b n = gate xr hr wi wh b n := by
  unfold gateK gate
  rw [Cert.JoinedRows.sum_append_mul (by norm_num : 1024 = 512 + 512) xr hr (fun k => w k n)]
  simp only [hwi, hwh]

/-! ## The gates -/

/-- The input gate's entry `(p, j)`: the logistic function of column `j` of the pre-activations. -/
theorem pay4_rows (P0 P1 : FVec Ideal S512x512 .f32) (P2 : FVec Ideal S1024x2048 .bf16) (P3 : FVec Ideal S1x2048 .f32)
    (p j : Fin 512) :
    k0_pay4 (F := Ideal) P0 P1 P2 P3 (ix2 p j) = sgK (k0_pay3 (F := Ideal) P0 P1 P2 P3 (ix2 p (col 0 (by omega) j))) := by
  unfold k0_pay4 sgK
  exact congrArg (fun z => wHalf * (wOne + Ideal.tanh (wHalf * z)))
    (slice2_axis1_apply 0 (k0_pay3 (F := Ideal) P0 P1 P2 P3) slices_S512x2048_o0_0_S512x512 p j (col 0 (by omega) j) rfl)

/-- The forget gate's entry `(p, j)`: the logistic function of column `512 + j`. -/
theorem pay5_rows (P0 P1 : FVec Ideal S512x512 .f32) (P2 : FVec Ideal S1024x2048 .bf16) (P3 : FVec Ideal S1x2048 .f32)
    (p j : Fin 512) :
    k0_pay5 (F := Ideal) P0 P1 P2 P3 (ix2 p j) = sgK (k0_pay3 (F := Ideal) P0 P1 P2 P3 (ix2 p (col 512 (by omega) j))) := by
  unfold k0_pay5 sgK
  exact congrArg (fun z => wHalf * (wOne + Ideal.tanh (wHalf * z)))
    (slice2_axis1_apply 512 (k0_pay3 (F := Ideal) P0 P1 P2 P3) slices_S512x2048_o0_512_S512x512 p j (col 512 (by omega) j) rfl)

/-- The candidate's entry `(p, j)`: the hyperbolic tangent of column `1024 + j`. -/
theorem pay6_rows (P0 P1 : FVec Ideal S512x512 .f32) (P2 : FVec Ideal S1024x2048 .bf16) (P3 : FVec Ideal S1x2048 .f32)
    (p j : Fin 512) :
    k0_pay6 (F := Ideal) P0 P1 P2 P3 (ix2 p j) = Ideal.tanh (k0_pay3 (F := Ideal) P0 P1 P2 P3 (ix2 p (col 1024 (by omega) j))) := by
  unfold k0_pay6
  exact congrArg Ideal.tanh
    (slice2_axis1_apply 1024 (k0_pay3 (F := Ideal) P0 P1 P2 P3) slices_S512x2048_o0_1024_S512x512 p j (col 1024 (by omega) j) rfl)

/-- The output gate's entry `(p, j)`: the logistic function of column `1536 + j`. -/
theorem pay7_rows (P0 P1 : FVec Ideal S512x512 .f32) (P2 : FVec Ideal S1024x2048 .bf16) (P3 : FVec Ideal S1x2048 .f32)
    (p j : Fin 512) :
    k0_pay7 (F := Ideal) P0 P1 P2 P3 (ix2 p j) = sgK (k0_pay3 (F := Ideal) P0 P1 P2 P3 (ix2 p (col 1536 (by omega) j))) := by
  unfold k0_pay7 sgK
  exact congrArg (fun z => wHalf * (wOne + Ideal.tanh (wHalf * z)))
    (slice2_axis1_apply 1536 (k0_pay3 (F := Ideal) P0 P1 P2 P3) slices_S512x2048_o0_1536_S512x512 p j (col 1536 (by omega) j) rfl)

/-! ## The cell entry and the hidden entry -/

/-- The new cell entry `(p, j)`: forget gate times the old entry plus input gate times the candidate. -/
theorem cell_rows (P0 P1 P4 : FVec Ideal S512x512 .f32) (P2 : FVec Ideal S1024x2048 .bf16) (P3 : FVec Ideal S1x2048 .f32)
    (p j : Fin 512) :
    k0_pay1 (F := Ideal) (k0_pay4 (F := Ideal) P0 P1 P2 P3) (k0_pay5 (F := Ideal) P0 P1 P2 P3) (k0_pay6 (F := Ideal) P0 P1 P2 P3) P4 (ix2 p j)
      = cellK (fun n => k0_pay3 (F := Ideal) P0 P1 P2 P3 (ix2 p n)) (fun k => P4 (ix2 p k)) j := by
  unfold k0_pay1 cellK
  show k0_pay5 (F := Ideal) P0 P1 P2 P3 (ix2 p j) * P4 (ix2 p j) + k0_pay4 (F := Ideal) P0 P1 P2 P3 (ix2 p j) * k0_pay6 (F := Ideal) P0 P1 P2 P3 (ix2 p j) = _
  rw [pay5_rows, pay4_rows, pay6_rows]

/-- The hidden entry `(p, k)` before normalisation: output gate times the hyperbolic tangent of the cell entry. -/
theorem hid_rows (P0 P1 P4 : FVec Ideal S512x512 .f32) (P2 : FVec Ideal S1024x2048 .bf16) (P3 : FVec Ideal S1x2048 .f32)
    (p k : Fin 512) :
    mulf (k0_pay7 (F := Ideal) P0 P1 P2 P3)
        (tanh (k0_pay1 (F := Ideal) (k0_pay4 (F := Ideal) P0 P1 P2 P3) (k0_pay5 (F := Ideal) P0 P1 P2 P3) (k0_pay6 (F := Ideal) P0 P1 P2 P3) P4)) (ix2 p k)
      = hidK (fun n => k0_pay3 (F := Ideal) P0 P1 P2 P3 (ix2 p n)) (fun k => P4 (ix2 p k)) k := by
  unfold hidK
  show k0_pay7 (F := Ideal) P0 P1 P2 P3 (ix2 p k)
      * Ideal.tanh (k0_pay1 (F := Ideal) (k0_pay4 (F := Ideal) P0 P1 P2 P3) (k0_pay5 (F := Ideal) P0 P1 P2 P3) (k0_pay6 (F := Ideal) P0 P1 P2 P3) P4 (ix2 p k)) = _
  rw [pay7_rows, cell_rows]

/-! ## The normalisation of a block of hidden rows -/

/-- The unit's normalisation of a block `H` of hidden rows, given the column `s1` of its row sums and the column `s2` of
    the row sums of its squares, with the weight row `lw` and the bias row `lb`: both columns scaled by 1/512, their
    combination into the variance, the inverse root of variance plus ε, and both columns spread back along the rows. -/
def lnK (H : FVec Ideal S512x512 .f32) (s1 s2 : FVec Ideal S512x1 .f32) (lw lb : FVec Ideal S1x512 .f32) :
    FVec Ideal S512x512 .f32 :=
  addf (mulf (mulf
      (subf H (broadcastTo S512x512 (mulf s1 (broadcast S512x1 (Scalar.ofBits .f32 0x3B000000#32))) broadcasts_S512x1_S512x512))
      (broadcastTo S512x512 (rsqrt (addf
        (subf (mulf s2 (broadcast S512x1 (Scalar.ofBits .f32 0x3B000000#32)))
          (mulf (mulf s1 (broadcast S512x1 (Scalar.ofBits .f32 0x3B000000#32)))
            (mulf s1 (broadcast S512x1 (Scalar.ofBits .f32 0x3B000000#32)))))
        (broadcast S512x1 (Scalar.ofBits .f32 0x3727C5AC#32)))) broadcasts_S512x1_S512x512))
      (broadcastTo S512x512 (shapeCast S1x512 lw shapeCasts_S1x512_S1x512) broadcasts_S1x512_S512x512))
    (broadcastTo S512x512 (shapeCast S1x512 lb shapeCasts_S1x512_S1x512) broadcasts_S1x512_S512x512)

/-- The unit's last payload is that normalisation of the block of hidden entries, with its row sums and the row sums of
    its squares kept as columns. -/
theorem pay2_eq (v22 v29 v30 v37 v38 : FVec Ideal S512x512 .f32) (v62 v66 : FVec Ideal S1x512 .f32) :
    k0_pay2 (F := Ideal) v22 v29 v30 v37 v38 v62 v66
      = lnK (mulf v37 (tanh (k0_pay1 (F := Ideal) v22 v29 v30 v38)))
          (shapeCast S512x1 (multiReduction .add [1] S512 (mulf v37 (tanh (k0_pay1 (F := Ideal) v22 v29 v30 v38))) 0x00000000#32 reduces_S512x512_S512 (.inl rfl) rfl) shapeCasts_S512_S512x1)
          (shapeCast S512x1 (multiReduction .add [1] S512 (mulf (mulf v37 (tanh (k0_pay1 (F := Ideal) v22 v29 v30 v38))) (mulf v37 (tanh (k0_pay1 (F := Ideal) v22 v29 v30 v38)))) 0x00000000#32 reduces_S512x512_S512 (.inl rfl) rfl) shapeCasts_S512_S512x1)
          v62 v66 := rfl

/-- A row sum kept as a column, read at `(p, u)`: the sum of row `p`. -/
theorem colsum (v : FVec Ideal S512x512 .f32) (p : Fin 512) (u : Fin 1) :
    (shapeCast S512x1 (multiReduction .add [1] S512 v 0x00000000#32 reduces_S512x512_S512 (.inl rfl) rfl) shapeCasts_S512_S512x1) (ix2 p u) = ∑ k : Fin 512, v (ix2 p k) :=
  (Cert.RowLayer.shapeCast_a_a1_apply _ shapeCasts_S512_S512x1 p u).trans
    (Cert.RowLayer.rowSum_apply v 0x00000000#32 reduces_S512x512_S512 (.inl rfl) rfl p)

/-- The inverse square root of an array, entry by entry. -/
theorem rsqrt_at {s : Shape} (a : FVec Ideal s .f32) (i : s.Idx) : rsqrt a i = Ideal.rsqrt (a i) := rfl

/-- Entry `(p, j)` of the normalised block, when the two columns hold row `p`'s sum and sum of squares: the row `p` of
    `H` normalised in spelling K. -/
theorem lnK_rows (H : FVec Ideal S512x512 .f32) (s1 s2 : FVec Ideal S512x1 .f32) (lw lb : FVec Ideal S1x512 .f32) (p j : Fin 512)
    (h1 : s1 (ix2 p (0 : Fin 1)) = ∑ k : Fin 512, H (ix2 p k))
    (h2 : s2 (ix2 p (0 : Fin 1)) = ∑ k : Fin 512, H (ix2 p k) * H (ix2 p k)) :
    lnK H s1 s2 lw lb (ix2 p j)
      = normK (fun k => H (ix2 p k)) (fun k => lw (ix2 (0 : Fin 1) k)) (fun k => lb (ix2 (0 : Fin 1) k)) j := by
  unfold lnK normK varK meanK
  simp only [addf_apply, mulf_apply, subf_apply, Cert.RowLayer.broadcastTo_a1_ab_apply, broadcastTo_1b_ab_apply,
    shapeCast_self, broadcast_apply, rsqrt_at, h1, h2]
  rfl

/-- Entry `(p, j)` of the unit's first result: the hidden row `p` normalised, both in spelling K. -/
theorem norm_rows (P0 P1 P4 : FVec Ideal S512x512 .f32) (P2 : FVec Ideal S1024x2048 .bf16) (P3 : FVec Ideal S1x2048 .f32)
    (P5 P6 : FVec Ideal S1x512 .f32) (p j : Fin 512) :
    k0_pay2 (F := Ideal) (k0_pay4 (F := Ideal) P0 P1 P2 P3) (k0_pay5 (F := Ideal) P0 P1 P2 P3) (k0_pay6 (F := Ideal) P0 P1 P2 P3)
        (k0_pay7 (F := Ideal) P0 P1 P2 P3) P4 P5 P6 (ix2 p j)
      = normK (hidK (fun n => k0_pay3 (F := Ideal) P0 P1 P2 P3 (ix2 p n)) (fun k => P4 (ix2 p k)))
          (fun k => P5 (ix2 (0 : Fin 1) k)) (fun k => P6 (ix2 (0 : Fin 1) k)) j := by
  rw [pay2_eq]
  exact (lnK_rows _ _ _ P5 P6 p j (colsum _ p 0) ((colsum _ p 0).trans (Finset.sum_congr rfl fun k _ => mulf_apply _ _ _))).trans
    (congrArg (fun hh => normK hh (fun k => P5 (ix2 (0 : Fin 1) k)) (fun k => P6 (ix2 (0 : Fin 1) k)) j)
      (funext fun k => hid_rows P0 P1 P4 P2 P3 p k))

end Cert.KernelIdeal.Rows

end
-- ==== Proof.RowMath.lean ====
/-
  The mathematics behind the comparison of the two spellings of one LSTM row followed by a layer normalisation
  (the spellings R and K of the module that states them), on the extended reals.

  Three facts carry it.
  * The float words that occur denote the reals ½, 1, 0, 512 and 1/512, and a finite sum of reals read as
    extended reals is the real sum; so a gate pre-activation of real data is real.
  * For a real `z`, `½ · (1 + tanh (z/2)) = 1 / (1 + e^(−z))`: the two spellings of the logistic function agree
    at real arguments, hence so do the cell entries and the hidden entries of a row whose gate pre-activations
    are real, and these entries are real again.
  * For 512 reals with mean `μ`, the mean of the squares less `μ²` is the mean of the squared deviations from
    `μ`: the two spellings of the variance agree on a real row. The two spellings of the mean agree on every
    row, since dividing by the real 512 is multiplying by 1/512. The normalised rows then agree whatever the
    scale, the shift and the small `ε` are, because they enter both spellings in the same way.
-/
import proofs.«141113_j65618510348829_2_alg».proof.Proof.RowSpec

noncomputable section

open scoped BigOperators

namespace Cert.LstmRow

open Idealize.ShloMosaic

/-! ## The float words as the reals they denote -/

/-- The word of ½ denotes the real `1/2`. -/
theorem wHalf_eq : wHalf = ((1 / 2 : ℝ) : EReal) := by
  simp [Ideal.ofBits, Ideal.ieee, -EReal.coe_mul]; norm_num

/-- The word of 1 denotes the real `1`. -/
theorem wOne_eq : wOne = ((1 : ℝ) : EReal) := by
  simp [Ideal.ofBits, Ideal.ieee, -EReal.coe_mul]; norm_num

/-- The word of 0 denotes `0`. -/
theorem wZero_eq : wZero = 0 := by
  simp [Ideal.ofBits, Ideal.ieee]

/-- The word of 512 denotes the real `512`. -/
theorem w512_eq : w512 = ((512 : ℝ) : EReal) := by
  simp [Ideal.ofBits, Ideal.ieee, -EReal.coe_mul]; norm_num

/-- The word of 1/512 denotes the real `1/512`. -/
theorem wInv512_eq : wInv512 = ((1 / 512 : ℝ) : EReal) := by
  simp [Ideal.ofBits, Ideal.ieee, -EReal.coe_mul]; norm_num

/-! ## Finite sums of reals inside the extended reals -/

/-- A finite sum of reals, each read as an extended real, is the real sum read as an extended real:
    the embedding of `ℝ` respects `0` and `+`, so it respects finite sums (induction on the index set). -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A gate pre-activation of a row of real inputs, real weights and real biases is real: it is built from
    them by products, two finite sums and two additions, and the reals are closed under all of these. -/
theorem gate_real (xr hr : Fin 512 → EReal) (wi wh : Fin 512 → Fin 2048 → EReal) (b : Fin 2048 → EReal)
    (hx : ∀ k, ∃ r : ℝ, xr k = (r : EReal)) (hh : ∀ k, ∃ r : ℝ, hr k = (r : EReal))
    (hwi : ∀ k n, ∃ r : ℝ, wi k n = (r : EReal)) (hwh : ∀ k n, ∃ r : ℝ, wh k n = (r : EReal))
    (hb : ∀ n, ∃ r : ℝ, b n = (r : EReal)) (n : Fin 2048) : ∃ r : ℝ, gate xr hr wi wh b n = (r : EReal) := by
  choose x ex using hx
  choose h eh using hh
  choose u eu using hwi
  choose v ev using hwh
  choose c ec using hb
  refine ⟨(∑ k, x k * u k n + ∑ k, h k * v k n) + c n, ?_⟩
  simp only [gate, ex, eh, eu, ev, ec, ← EReal.coe_mul, coe_sum, ← EReal.coe_add]

/-! ## The two spellings of the logistic function -/

/-- Over the reals, `½ · (1 + tanh (z/2)) = 1 / (1 + e^(−z))`. With `a = e^(z/2) > 0` the hyperbolic tangent of
    `z/2` is `(a − a⁻¹) / (a + a⁻¹)`, so the left side is `a / (a + a⁻¹)`; dividing through by `a` gives
    `1 / (1 + a⁻¹ · a⁻¹)`, and `a⁻¹ · a⁻¹ = e^(−z)`. -/
theorem half_one_add_tanh_half (z : ℝ) :
    1 / 2 * (1 + Real.tanh (1 / 2 * z)) = 1 * (1 / (1 + Real.exp (-z))) := by
  have ha : 0 < Real.exp (1 / 2 * z) := Real.exp_pos _
  have h1 : Real.exp (-(1 / 2 * z)) = (Real.exp (1 / 2 * z))⁻¹ := Real.exp_neg _
  have h2 : Real.exp (-z) = (Real.exp (1 / 2 * z))⁻¹ * (Real.exp (1 / 2 * z))⁻¹ := by
    rw [← h1, ← Real.exp_add]; congr 1; ring
  rw [Real.tanh_eq, h1, h2]
  generalize Real.exp (1 / 2 * z) = a at ha ⊢
  field_simp
  ring

/-- At a real `r`, spelling R of the logistic function is the real `1 · (1 / (1 + e^(−r)))`: the denominator
    `1 + e^(−r)` is a positive real, so the division is the product with its reciprocal. -/
theorem sgR_coe (r : ℝ) : sgR (r : EReal) = ((1 * (1 / (1 + Real.exp (-r))) : ℝ) : EReal) := by
  have hne : 1 + Real.exp (-r) ≠ 0 := by positivity
  rw [sgR, wOne_eq, ← EReal.coe_neg, Ideal.exp_coe, ← EReal.coe_add, Ideal.div_coe hne, ← EReal.coe_mul]

/-- At a real `r`, spelling K of the logistic function is the real `½ · (1 + tanh (½ · r))`. -/
theorem sgK_coe (r : ℝ) : sgK (r : EReal) = ((1 / 2 * (1 + Real.tanh (1 / 2 * r)) : ℝ) : EReal) := by
  rw [sgK, wHalf_eq, wOne_eq, ← EReal.coe_mul, Ideal.tanh_coe, ← EReal.coe_add, ← EReal.coe_mul]

/-- The two spellings of the logistic function agree at every real argument. -/
theorem sgK_eq_sgR (r : ℝ) : sgK (r : EReal) = sgR (r : EReal) := by
  rw [sgK_coe, sgR_coe, half_one_add_tanh_half]

/-! ## The cell and the hidden entry -/

/-- The new cell entry is the same in both spellings when the gate pre-activations are real: the two
    expressions differ only in how the logistic function of the forget and of the input pre-activation is
    written, and the two writings agree at real arguments. (The previous cell entry is a common factor; that
    it is real is not used here.) -/
theorem cellK_eq_cellR (g : Fin 2048 → EReal) (cr : Fin 512 → EReal)
    (hg : ∀ n, ∃ r : ℝ, g n = (r : EReal)) (hc : ∀ j, ∃ r : ℝ, cr j = (r : EReal)) (j : Fin 512) :
    cellK g cr j = cellR g cr j := by
  obtain ⟨f, ef⟩ := hg (col 512 (by omega) j)
  obtain ⟨i, ei⟩ := hg (col 0 (by omega) j)
  rw [cellK, cellR, ef, ei, sgK_eq_sgR, sgK_eq_sgR]

/-- The new cell entry (spelling R) of real gate pre-activations and a real previous cell entry is real: the
    logistic function and the hyperbolic tangent of a real are real, and so are products and sums of reals. -/
theorem cellR_real (g : Fin 2048 → EReal) (cr : Fin 512 → EReal)
    (hg : ∀ n, ∃ r : ℝ, g n = (r : EReal)) (hc : ∀ j, ∃ r : ℝ, cr j = (r : EReal)) (j : Fin 512) :
    ∃ r : ℝ, cellR g cr j = (r : EReal) := by
  obtain ⟨f, ef⟩ := hg (col 512 (by omega) j)
  obtain ⟨i, ei⟩ := hg (col 0 (by omega) j)
  obtain ⟨u, eu⟩ := hg (col 1024 (by omega) j)
  obtain ⟨c, ec⟩ := hc j
  rw [cellR, ef, ei, eu, ec, sgR_coe, sgR_coe, Ideal.tanh_coe, ← EReal.coe_mul, ← EReal.coe_mul, ← EReal.coe_add]
  exact ⟨_, rfl⟩

/-- The hidden entry is the same in both spellings: the cell entries agree, and the logistic function of the
    (real) output pre-activation is the same real in both writings. -/
theorem hidK_eq_hidR (g : Fin 2048 → EReal) (cr : Fin 512 → EReal)
    (hg : ∀ n, ∃ r : ℝ, g n = (r : EReal)) (hc : ∀ j, ∃ r : ℝ, cr j = (r : EReal)) (j : Fin 512) :
    hidK g cr j = hidR g cr j := by
  obtain ⟨o, eo⟩ := hg (col 1536 (by omega) j)
  rw [hidK, hidR, cellK_eq_cellR g cr hg hc j, eo, sgK_eq_sgR]

/-- The hidden entry of real data is real: it is the logistic function of a real times the hyperbolic tangent
    of the (real) cell entry. -/
theorem hidR_real (g : Fin 2048 → EReal) (cr : Fin 512 → EReal)
    (hg : ∀ n, ∃ r : ℝ, g n = (r : EReal)) (hc : ∀ j, ∃ r : ℝ, cr j = (r : EReal)) (j : Fin 512) :
    ∃ r : ℝ, hidR g cr j = (r : EReal) := by
  obtain ⟨o, eo⟩ := hg (col 1536 (by omega) j)
  obtain ⟨c, ec⟩ := cellR_real g cr hg hc j
  rw [hidR, eo, ec, sgR_coe, Ideal.tanh_coe, ← EReal.coe_mul]
  exact ⟨_, rfl⟩

/-! ## Mean and variance of a row -/

/-- The two spellings of the mean agree for every row, real or not: adding the sum to `0` changes nothing, and
    dividing by the nonzero real `512` is multiplying by `1/512`. -/
theorem meanK_eq_meanR (hh : Fin 512 → EReal) : meanK hh = meanR hh := by
  rw [meanK, meanR, wZero_eq, zero_add, w512_eq, wInv512_eq, Ideal.div_coe (by norm_num)]

/-- Over the reals, with `μ` the mean of 512 numbers, the mean of the squares less `μ²` is the mean of the
    squared deviations from `μ`. Expanding `(f j − μ)² = f j² − 2 μ f j + μ²` and summing gives
    `∑ f² − 2 μ ∑ f + 512 μ²`; since `∑ f = 512 μ` this is `∑ f² − 512 μ²`, and dividing by 512 gives the claim. -/
theorem mean_sq_sub_sq_mean (f : Fin 512 → ℝ) (μ : ℝ) (hμ : μ = (∑ j, f j) * (1 / 512)) :
    (∑ j, f j * f j) * (1 / 512) - μ * μ = (∑ j, (f j - μ) * (f j - μ)) * (1 / 512) := by
  have hexp : ∀ j, (f j - μ) * (f j - μ) = f j * f j - 2 * μ * f j + μ * μ := fun j => by ring
  have hsum : ∑ j, (f j - μ) * (f j - μ) = (∑ j, f j * f j) - 2 * μ * (∑ j, f j) + 512 * (μ * μ) := by
    simp only [hexp, Finset.sum_add_distrib, Finset.sum_sub_distrib, ← Finset.mul_sum, Finset.sum_const,
      Finset.card_univ, Fintype.card_fin, nsmul_eq_mul, Nat.cast_ofNat]
    ring
  have hS : ∑ j, f j = 512 * μ := by rw [hμ]; ring
  rw [hsum, hS]; ring

/-- For a row of reals the two spellings of the variance agree: both are then (coerced) reals, the mean being
    the real `μ = (∑ h) / 512`, and the two reals are equal by the identity above. -/
theorem varK_eq_varR (hh : Fin 512 → EReal) (hreal : ∀ j, ∃ r : ℝ, hh j = (r : EReal)) : varK hh = varR hh := by
  choose f ef using hreal
  have hμ : meanR hh = (((∑ j, f j) * (1 / 512) : ℝ) : EReal) := by
    rw [meanR, wZero_eq, zero_add, w512_eq, Ideal.div_coe (by norm_num)]
    simp only [ef, coe_sum, ← EReal.coe_mul]
  rw [varK, varR, meanK_eq_meanR, hμ, wZero_eq, zero_add, w512_eq, wInv512_eq, Ideal.div_coe (by norm_num)]
  simp only [ef, ← EReal.coe_sub, ← EReal.coe_mul, coe_sum]
  rw [mean_sq_sub_sq_mean f _ rfl]

/-- The normalised row is the same in both spellings when the row is real: the two expressions differ only in
    the mean and in the variance, which agree; the scale `lw`, the shift `lb` and the small `ε` enter both in
    the same way and may be anything. -/
theorem normK_eq_normR (hh lw lb : Fin 512 → EReal) (hreal : ∀ j, ∃ r : ℝ, hh j = (r : EReal)) (j : Fin 512) :
    normK hh lw lb j = normR hh lw lb j := by
  rw [normK, normR, meanK_eq_meanR, varK_eq_varR hh hreal]

end Cert.LstmRow

end
-- ==== Proof.ArraySpec.lean ====
/-
  The two results as functions of whole arrays.

  The arrays have 16384 rows. Row `R` of the two results depends only on row `R` of the input features `x`, of the
  previous hidden features `h` and of the previous cell entries `cp`, and on the weights and biases: `rowGate` is the
  row's 2048 gate pre-activations, `cellArr` the new cell entries and `normArr` the normalised hidden entries, all in
  spelling R of the row's arithmetic.
-/
import proofs.«141113_j65618510348829_2_alg».proof.Proof.RowSpec
import Idealize.ShloMosaic.Lib.ValueIdx

noncomputable section

namespace Cert.LstmRow

open Idealize.ShloMosaic Idealize.ShloMosaic.ValueIdx

/-- The gate pre-activations of row `R`. -/
def rowGate (x h : (⟨2, ![16384, 512]⟩ : Shape).Idx → EReal) (wi wh : (⟨2, ![512, 2048]⟩ : Shape).Idx → EReal)
    (b : (⟨1, ![2048]⟩ : Shape).Idx → EReal) (R : Fin 16384) : Fin 2048 → EReal :=
  gate (fun k => x (ix2 R k)) (fun k => h (ix2 R k)) (fun k n => wi (ix2 k n)) (fun k n => wh (ix2 k n)) (fun n => b (ix1 n))

/-- The new cell state, entry by entry. -/
def cellArr (x h cp : (⟨2, ![16384, 512]⟩ : Shape).Idx → EReal) (wi wh : (⟨2, ![512, 2048]⟩ : Shape).Idx → EReal)
    (b : (⟨1, ![2048]⟩ : Shape).Idx → EReal) : (⟨2, ![16384, 512]⟩ : Shape).Idx → EReal := fun i =>
  cellR (rowGate x h wi wh b ⟨(i 0).val, idx2_lt0 i⟩) (fun k => cp (ix2 ⟨(i 0).val, idx2_lt0 i⟩ k)) ⟨(i 1).val, idx2_lt1 i⟩

/-- The normalised hidden state, entry by entry. -/
def normArr (x h cp : (⟨2, ![16384, 512]⟩ : Shape).Idx → EReal) (wi wh : (⟨2, ![512, 2048]⟩ : Shape).Idx → EReal)
    (b : (⟨1, ![2048]⟩ : Shape).Idx → EReal) (lw lb : (⟨1, ![512]⟩ : Shape).Idx → EReal) :
    (⟨2, ![16384, 512]⟩ : Shape).Idx → EReal := fun i =>
  normR (hidR (rowGate x h wi wh b ⟨(i 0).val, idx2_lt0 i⟩) (fun k => cp (ix2 ⟨(i 0).val, idx2_lt0 i⟩ k)))
    (fun k => lw (ix1 k)) (fun k => lb (ix1 k)) ⟨(i 1).val, idx2_lt1 i⟩

/-- The new cell state at row `R`, column `j`. -/
theorem cellArr_ix2 (x h cp : (⟨2, ![16384, 512]⟩ : Shape).Idx → EReal) (wi wh : (⟨2, ![512, 2048]⟩ : Shape).Idx → EReal)
    (b : (⟨1, ![2048]⟩ : Shape).Idx → EReal) (R : Fin 16384) (j : Fin 512) :
    cellArr x h cp wi wh b (ix2 R j) = cellR (rowGate x h wi wh b R) (fun k => cp (ix2 R k)) j := rfl

/-- The normalised hidden state at row `R`, column `j`. -/
theorem normArr_ix2 (x h cp : (⟨2, ![16384, 512]⟩ : Shape).Idx → EReal) (wi wh : (⟨2, ![512, 2048]⟩ : Shape).Idx → EReal)
    (b : (⟨1, ![2048]⟩ : Shape).Idx → EReal) (lw lb : (⟨1, ![512]⟩ : Shape).Idx → EReal) (R : Fin 16384) (j : Fin 512) :
    normArr x h cp wi wh b lw lb (ix2 R j)
      = normR (hidR (rowGate x h wi wh b R) (fun k => cp (ix2 R k))) (fun k => lw (ix1 k)) (fun k => lb (ix1 k)) j := rfl

end Cert.LstmRow

end
-- ==== Proof.KernelBlock.lean ====
/-
  One block of the tiled unit against the whole arrays.

  Row `p` of a block is row `R` of the arrays; the stacked weights the unit holds are the input weights above the
  recurrent weights; the bias and the two normalisation rows are the vectors laid as one-row matrices. Under these
  reading facts the unit's gate pre-activations of the row are the arrays' (`gate_of_block`): the sum over the joined row
  is the sum of the two partial products. When moreover every entry of the inputs, the weights and the bias is a real
  number, the two spellings of the row's arithmetic agree, and the unit's two results at `(p, j)` are the entries
  `(R, j)` of `cellArr` and `normArr`.
-/
import proofs.«141113_j65618510348829_2_alg».proof.Proof.KernelRows
import proofs.«141113_j65618510348829_2_alg».proof.Proof.RowMath
import proofs.«141113_j65618510348829_2_alg».proof.Proof.ArraySpec

noncomputable section

namespace Cert.KernelIdeal.Rows

open Cert.KernelIdeal Cert.KernelIdeal.Gen Idealize.ShloMosaic Idealize.ShloMosaic.ValueIdx Cert.LstmRow

/-- The unit's gate pre-activations of block row `p` are those of array row `R`. -/
theorem gate_of_block (B0 B1 : FVec Ideal S512x512 .f32) (B2 : FVec Ideal S1024x2048 .bf16) (B3 : FVec Ideal S1x2048 .f32)
    (x h : (⟨2, ![16384, 512]⟩ : Shape).Idx → EReal) (wi wh : (⟨2, ![512, 2048]⟩ : Shape).Idx → EReal) (b : (⟨1, ![2048]⟩ : Shape).Idx → EReal)
    (R : Fin 16384) (p : Fin 512)
    (h0 : ∀ k : Fin 512, B0 (ix2 p k) = x (ix2 R k)) (h1 : ∀ k : Fin 512, B1 (ix2 p k) = h (ix2 R k))
    (h2u : ∀ (k : Fin 512) (n : Fin 2048), B2 (ix2 (⟨k.val, by omega⟩ : Fin 1024) n) = wi (ix2 k n))
    (h2l : ∀ (k : Fin 512) (n : Fin 2048), B2 (ix2 (⟨512 + k.val, by omega⟩ : Fin 1024) n) = wh (ix2 k n))
    (h3 : ∀ n : Fin 2048, B3 (ix2 (0 : Fin 1) n) = b (ix1 n)) :
    (fun n => k0_pay3 (F := Ideal) B0 B1 B2 B3 (ix2 p n)) = rowGate x h wi wh b R := by
  funext n
  rw [pay3_rows]
  unfold rowGate
  have e0 : (fun k => B0 (ix2 p k)) = fun k => x (ix2 R k) := funext h0
  have e1 : (fun k => B1 (ix2 p k)) = fun k => h (ix2 R k) := funext h1
  have e3 : (fun q => B3 (ix2 (0 : Fin 1) q)) = fun q => b (ix1 q) := funext h3
  rw [e0, e1, e3]
  exact gateK_eq_gate _ _ _ _ _ _ h2u h2l n

/-- The gate pre-activations of a row of real inputs, real weights and a real bias are real. -/
theorem rowGate_real (x h : (⟨2, ![16384, 512]⟩ : Shape).Idx → EReal) (wi wh : (⟨2, ![512, 2048]⟩ : Shape).Idx → EReal) (b : (⟨1, ![2048]⟩ : Shape).Idx → EReal)
    (rx : ∀ i, ∃ r : ℝ, x i = (r : EReal)) (rh : ∀ i, ∃ r : ℝ, h i = (r : EReal))
    (rwi : ∀ i, ∃ r : ℝ, wi i = (r : EReal)) (rwh : ∀ i, ∃ r : ℝ, wh i = (r : EReal)) (rb : ∀ i, ∃ r : ℝ, b i = (r : EReal))
    (R : Fin 16384) (n : Fin 2048) : ∃ r : ℝ, rowGate x h wi wh b R n = (r : EReal) :=
  gate_real _ _ _ _ _ (fun _ => rx _) (fun _ => rh _) (fun _ _ => rwi _) (fun _ _ => rwh _) (fun _ => rb _) n

/-- The unit's new cell entry `(p, j)` of a block is entry `(R, j)` of `cellArr`. -/
theorem cell_block (B0 B1 B4 : FVec Ideal S512x512 .f32) (B2 : FVec Ideal S1024x2048 .bf16) (B3 : FVec Ideal S1x2048 .f32)
    (x h cp : (⟨2, ![16384, 512]⟩ : Shape).Idx → EReal) (wi wh : (⟨2, ![512, 2048]⟩ : Shape).Idx → EReal) (b : (⟨1, ![2048]⟩ : Shape).Idx → EReal)
    (R : Fin 16384) (p j : Fin 512)
    (h0 : ∀ k : Fin 512, B0 (ix2 p k) = x (ix2 R k)) (h1 : ∀ k : Fin 512, B1 (ix2 p k) = h (ix2 R k))
    (h4 : ∀ k : Fin 512, B4 (ix2 p k) = cp (ix2 R k))
    (h2u : ∀ (k : Fin 512) (n : Fin 2048), B2 (ix2 (⟨k.val, by omega⟩ : Fin 1024) n) = wi (ix2 k n))
    (h2l : ∀ (k : Fin 512) (n : Fin 2048), B2 (ix2 (⟨512 + k.val, by omega⟩ : Fin 1024) n) = wh (ix2 k n))
    (h3 : ∀ n : Fin 2048, B3 (ix2 (0 : Fin 1) n) = b (ix1 n))
    (rx : ∀ i, ∃ r : ℝ, x i = (r : EReal)) (rh : ∀ i, ∃ r : ℝ, h i = (r : EReal)) (rc : ∀ i, ∃ r : ℝ, cp i = (r : EReal))
    (rwi : ∀ i, ∃ r : ℝ, wi i = (r : EReal)) (rwh : ∀ i, ∃ r : ℝ, wh i = (r : EReal)) (rb : ∀ i, ∃ r : ℝ, b i = (r : EReal)) :
    k0_pay1 (F := Ideal) (k0_pay4 (F := Ideal) B0 B1 B2 B3) (k0_pay5 (F := Ideal) B0 B1 B2 B3) (k0_pay6 (F := Ideal) B0 B1 B2 B3) B4 (ix2 p j)
      = cellArr x h cp wi wh b (ix2 R j) := by
  rw [cell_rows, gate_of_block B0 B1 B2 B3 x h wi wh b R p h0 h1 h2u h2l h3, cellArr_ix2,
    show (fun k => B4 (ix2 p k)) = fun k => cp (ix2 R k) from funext h4]
  exact cellK_eq_cellR _ _ (rowGate_real x h wi wh b rx rh rwi rwh rb R) (fun _ => rc _) j

/-- The unit's normalised hidden entry `(p, j)` of a block is entry `(R, j)` of `normArr`. -/
theorem norm_block (B0 B1 B4 : FVec Ideal S512x512 .f32) (B2 : FVec Ideal S1024x2048 .bf16) (B3 : FVec Ideal S1x2048 .f32)
    (B5 B6 : FVec Ideal S1x512 .f32)
    (x h cp : (⟨2, ![16384, 512]⟩ : Shape).Idx → EReal) (wi wh : (⟨2, ![512, 2048]⟩ : Shape).Idx → EReal) (b : (⟨1, ![2048]⟩ : Shape).Idx → EReal) (lw lb : (⟨1, ![512]⟩ : Shape).Idx → EReal)
    (R : Fin 16384) (p j : Fin 512)
    (h0 : ∀ k : Fin 512, B0 (ix2 p k) = x (ix2 R k)) (h1 : ∀ k : Fin 512, B1 (ix2 p k) = h (ix2 R k))
    (h4 : ∀ k : Fin 512, B4 (ix2 p k) = cp (ix2 R k))
    (h2u : ∀ (k : Fin 512) (n : Fin 2048), B2 (ix2 (⟨k.val, by omega⟩ : Fin 1024) n) = wi (ix2 k n))
    (h2l : ∀ (k : Fin 512) (n : Fin 2048), B2 (ix2 (⟨512 + k.val, by omega⟩ : Fin 1024) n) = wh (ix2 k n))
    (h3 : ∀ n : Fin 2048, B3 (ix2 (0 : Fin 1) n) = b (ix1 n))
    (h5 : ∀ k : Fin 512, B5 (ix2 (0 : Fin 1) k) = lw (ix1 k)) (h6 : ∀ k : Fin 512, B6 (ix2 (0 : Fin 1) k) = lb (ix1 k))
    (rx : ∀ i, ∃ r : ℝ, x i = (r : EReal)) (rh : ∀ i, ∃ r : ℝ, h i = (r : EReal)) (rc : ∀ i, ∃ r : ℝ, cp i = (r : EReal))
    (rwi : ∀ i, ∃ r : ℝ, wi i = (r : EReal)) (rwh : ∀ i, ∃ r : ℝ, wh i = (r : EReal)) (rb : ∀ i, ∃ r : ℝ, b i = (r : EReal)) :
    k0_pay2 (F := Ideal) (k0_pay4 (F := Ideal) B0 B1 B2 B3) (k0_pay5 (F := Ideal) B0 B1 B2 B3) (k0_pay6 (F := Ideal) B0 B1 B2 B3)
        (k0_pay7 (F := Ideal) B0 B1 B2 B3) B4 B5 B6 (ix2 p j)
      = normArr x h cp wi wh b lw lb (ix2 R j) := by
  rw [norm_rows, gate_of_block B0 B1 B2 B3 x h wi wh b R p h0 h1 h2u h2l h3, normArr_ix2,
    show (fun k => B4 (ix2 p k)) = fun k => cp (ix2 R k) from funext h4,
    show (fun k => B5 (ix2 (0 : Fin 1) k)) = fun k => lw (ix1 k) from funext h5,
    show (fun k => B6 (ix2 (0 : Fin 1) k)) = fun k => lb (ix1 k) from funext h6]
  have hg := rowGate_real x h wi wh b rx rh rwi rwh rb R
  have hc : ∀ k : Fin 512, ∃ r : ℝ, cp (ix2 R k) = (r : EReal) := fun _ => rc _
  have hK : hidK (rowGate x h wi wh b R) (fun k => cp (ix2 R k)) = hidR (rowGate x h wi wh b R) (fun k => cp (ix2 R k)) :=
    funext fun k => hidK_eq_hidR _ _ hg hc k
  rw [hK]
  exact normK_eq_normR _ _ _ (fun k => hidR_real _ _ hg hc k) j

end Cert.KernelIdeal.Rows

end
-- ==== Proof.KernelHost.lean ====
/-
  What four arrays hold when the program's one tiled region is entered, read entry by entry.

  Before the region the host re-lays five of the program's arguments. The input weights `[512, 2048]` are stacked
  above the recurrent weights `[512, 2048]` into one array `[1024, 2048]`, whose float format is then narrowed — on
  the extended reals a change of format is the identity. The bias `[2048]` and the two normalisation vectors `[512]`
  are each re-laid as a matrix of one row. So, at region entry,

  * row `k` of the stacked array is row `k` of the input weights for `k < 512`, and row `512 + k` is row `k` of the
    recurrent weights;
  * entry `(0, q)` of each one-row matrix is entry `q` of the vector it was made from.

  Each array is first named as the term the host operations compute, once; that term is then read at an index with
  the lemmas that say what a concatenation and a re-laying hold at an index.
-/
import proofs.«141113_j65618510348829_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.Host

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (c : Dev nD)

/-! ## The arrays as the terms the host operations compute -/

/-- At region entry the stacked weights are the concatenation, along the rows, of the input weights and the
    recurrent weights as launched, with the float format narrowed. -/
theorem V_v1_eq :
    (V m c main_v1 : S1024x2048.Idx → EReal)
      = truncf (F := Ideal) .bf16 (concatenate S1024x2048 0
          [⟨S512x2048, (m ((c : Thread nD τ).loc main_arg3) : S512x2048.Idx → EReal)⟩,
           ⟨S512x2048, (m ((c : Thread nD τ).loc main_arg4) : S512x2048.Idx → EReal)⟩]
          concatenates_S512x2048_S512x2048_S1024x2048_d0) bitsLt_bf16_f32 := by
  dsimp only [Gen.V, Gen.hostOps0]; after_results

/-- At region entry the bias matrix is the bias vector as launched, re-laid as one row. -/
theorem V_v2_eq :
    (V m c main_v2 : S1x2048.Idx → EReal)
      = shapeCast S1x2048 (m ((c : Thread nD τ).loc main_arg5) : S2048.Idx → EReal) shapeCasts_S2048_S1x2048 := by
  dsimp only [Gen.V, Gen.hostOps0]; after_results; rfl

/-- At region entry the normalisation's scale matrix is the scale vector as launched, re-laid as one row. -/
theorem V_v3_eq :
    (V m c main_v3 : S1x512.Idx → EReal)
      = shapeCast S1x512 (m ((c : Thread nD τ).loc main_arg6) : S512.Idx → EReal) shapeCasts_S512_S1x512 := by
  dsimp only [Gen.V, Gen.hostOps0]; after_results; rfl

/-- At region entry the normalisation's shift matrix is the shift vector as launched, re-laid as one row. -/
theorem V_v4_eq :
    (V m c main_v4 : S1x512.Idx → EReal)
      = shapeCast S1x512 (m ((c : Thread nD τ).loc main_arg7) : S512.Idx → EReal) shapeCasts_S512_S1x512 := by
  dsimp only [Gen.V, Gen.hostOps0]; after_results; rfl

/-! ## The arrays read at an entry -/

/-- Row `k < 512` of the stacked weights is row `k` of the input weights: the row coordinate falls in the first
    piece of the concatenation, and narrowing the format changes no extended real. -/
theorem V_stack_upper (k : Fin 512) (n : Fin 2048) :
    (V m c main_v1 : S1024x2048.Idx → EReal) (ix2 (⟨k.val, by omega⟩ : Fin 1024) n)
      = (m ((c : Thread nD τ).loc main_arg3) : S512x2048.Idx → EReal) (ix2 k n) := by
  rw [V_v1_eq, truncf_apply]
  exact concatenate_pair_apply_left (s₁ := S512x2048) (s₂ := S512x2048) (0 : Fin 2) _ _ _
    (ix2 (⟨k.val, by omega⟩ : Fin 1024) n) rfl (ix2 k n) (fun b => by match b with | ⟨0, _⟩ => rfl | ⟨1, _⟩ => rfl)

/-- Row `512 + k` of the stacked weights is row `k` of the recurrent weights: the row coordinate falls in the
    second piece of the concatenation, at the first piece's 512 rows less. -/
theorem V_stack_lower (k : Fin 512) (n : Fin 2048) :
    (V m c main_v1 : S1024x2048.Idx → EReal) (ix2 (⟨512 + k.val, by omega⟩ : Fin 1024) n)
      = (m ((c : Thread nD τ).loc main_arg4) : S512x2048.Idx → EReal) (ix2 k n) := by
  rw [V_v1_eq, truncf_apply]
  exact concatenate_pair_apply_right (s₁ := S512x2048) (s₂ := S512x2048) (0 : Fin 2) _ _ _
    (ix2 (⟨512 + k.val, by omega⟩ : Fin 1024) n) rfl rfl (ix2 k n)
    (fun b hb => by match b with | ⟨0, _⟩ => exact absurd rfl hb | ⟨1, _⟩ => rfl)
    (by show k.val + 512 = 512 + k.val; omega)

/-- Entry `(0, n)` of the bias matrix is entry `n` of the bias vector. -/
theorem V_bias_row (n : Fin 2048) :
    (V m c main_v2 : S1x2048.Idx → EReal) (ix2 (0 : Fin 1) n)
      = (m ((c : Thread nD τ).loc main_arg5) : S2048.Idx → EReal) (ix1 n) := by
  rw [V_v2_eq]; exact shapeCast_a_1a_apply _ _ 0 n

/-- Entry `(0, k)` of the normalisation's scale matrix is entry `k` of the scale vector. -/
theorem V_lnw_row (k : Fin 512) :
    (V m c main_v3 : S1x512.Idx → EReal) (ix2 (0 : Fin 1) k)
      = (m ((c : Thread nD τ).loc main_arg6) : S512.Idx → EReal) (ix1 k) := by
  rw [V_v3_eq]; exact shapeCast_a_1a_apply _ _ 0 k

/-- Entry `(0, k)` of the normalisation's shift matrix is entry `k` of the shift vector. -/
theorem V_lnb_row (k : Fin 512) :
    (V m c main_v4 : S1x512.Idx → EReal) (ix2 (0 : Fin 1) k)
      = (m ((c : Thread nD τ).loc main_arg7) : S512.Idx → EReal) (ix1 k) := by
  rw [V_v4_eq]; exact shapeCast_a_1a_apply _ _ 0 k

end Cert.KernelIdeal.Host

end
-- ==== Proof.KernelArray.lean ====
/-
  From blocks to arrays: what the tiled program leaves in its two result arrays.

  The grid has 32 points; point `t` works on rows `512·t … 512·t + 511` of the three row-blocked inputs and writes the
  same rows of the two results, while the stacked weights, the bias row and the two normalisation rows are the same
  whole arrays at every point. So the block a point writes back is, entry by entry, a block of ONE function of the
  argument arrays (`cellArr` for the cell state, `normArr` for the normalised hidden state) — here the agreement of the
  two spellings of the row's arithmetic is used, which needs the inputs, the weights and the bias to be real — and
  since the 32 blocks cover all 16384 rows, each result array ends holding that function.
-/
import proofs.«141113_j65618510348829_2_alg».proof.Proof.Gen.KernelIdeal.Value
import proofs.«141113_j65618510348829_2_alg».proof.Proof.KernelBlock
import proofs.«141113_j65618510348829_2_alg».proof.Proof.KernelHost

noncomputable section

namespace Cert.KernelIdeal.Final

open Cert.KernelIdeal Cert.KernelIdeal.Gen Idealize.ShloMosaic Idealize.ShloMosaic.ValueIdx Idealize.ShloMosaic.TcCoe Idealize.SL.Sem
open Idealize.ShloMosaic.Pipeline (Dat)
open Cert.LstmRow Cert.KernelIdeal.Rows Cert.KernelIdeal.Host

variable (m : (ℓ : Loc nD τ sig) → Buf (Elt Ideal) ℓ) (ρ : Dev nD → PrngReg)

/-! ## The argument arrays as launched -/

/-- The input features. -/
abbrev argX (c : Dev nD) : S16384x512.Idx → EReal := m ((c : Thread nD τ).loc main_arg0)
/-- The previous hidden features. -/
abbrev argH (c : Dev nD) : S16384x512.Idx → EReal := m ((c : Thread nD τ).loc main_arg1)
/-- The previous cell state. -/
abbrev argC (c : Dev nD) : S16384x512.Idx → EReal := m ((c : Thread nD τ).loc main_arg2)
/-- The input weights. -/
abbrev argWi (c : Dev nD) : S512x2048.Idx → EReal := m ((c : Thread nD τ).loc main_arg3)
/-- The recurrent weights. -/
abbrev argWh (c : Dev nD) : S512x2048.Idx → EReal := m ((c : Thread nD τ).loc main_arg4)
/-- The bias. -/
abbrev argB (c : Dev nD) : S2048.Idx → EReal := m ((c : Thread nD τ).loc main_arg5)
/-- The normalisation's weight. -/
abbrev argLw (c : Dev nD) : S512.Idx → EReal := m ((c : Thread nD τ).loc main_arg6)
/-- The normalisation's bias. -/
abbrev argLb (c : Dev nD) : S512.Idx → EReal := m ((c : Thread nD τ).loc main_arg7)

/-- Every entry of the inputs, the weights and the bias is a real number. -/
structure RealArgs (c : Dev nD) : Prop where
  x : ∀ i, ∃ r : ℝ, argX m c i = (r : EReal)
  h : ∀ i, ∃ r : ℝ, argH m c i = (r : EReal)
  cp : ∀ i, ∃ r : ℝ, argC m c i = (r : EReal)
  wi : ∀ i, ∃ r : ℝ, argWi m c i = (r : EReal)
  wh : ∀ i, ∃ r : ℝ, argWh m c i = (r : EReal)
  b : ∀ i, ∃ r : ℝ, argB m c i = (r : EReal)

/-! ## Where each window's block sits -/

theorem hz : (![0, 0] : Fin 2 → Nat) = fun _ => 0 := funext fun a => by fin_cases a <;> rfl

/-- The index maps, decided over the 32 points: the three row-blocked inputs and the two results are at block row `t`,
    the four shared operands at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Two functions on a 512 × 512 block that agree at every `(p, j)` are equal. -/
theorem ext_block (f g : S512x512.Idx → EReal) (hfg : ∀ p j : Fin 512, f (ix2 p j) = g (ix2 p j)) : f = g :=
  funext fun y => by rw [eq_ix2 y]; exact hfg _ _

/-! ## What a point's input blocks hold -/

section Blocks

variable (c : Dev nD) (t : Fin cfg0.N)

/-- Row `512·t + p` is a row of the arrays. -/
theorem row_lt (p : Fin 512) : 512 * t.val + p.val < 16384 := by
  have hN : cfg0.N = 32 := N_0
  have := t.isLt
  have := p.isLt
  omega

/-- Row `p` of the input-feature block at point `t` is row `512·t + p` of the input features. -/
theorem blk0 (p k : Fin 512) : iblk m c 0 t (ix2 p k) = argX m c (ix2 ⟨512 * t.val + p.val, row_lt t p⟩ k) := by
  obtain ⟨e, e', -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

/-- The same for the previous hidden features. -/
theorem blk1 (p k : Fin 512) : iblk m c 1 t (ix2 p k) = argH m c (ix2 ⟨512 * t.val + p.val, row_lt t p⟩ k) := by
  obtain ⟨-, -, e, e', -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega

/-- The same for the previous cell state. -/
theorem blk2 (p k : Fin 512) : iblk m c 2 t (ix2 p k) = argC m c (ix2 ⟨512 * t.val + p.val, row_lt t p⟩ k) := by
  obtain ⟨-, -, -, -, e, e', -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 512 + 1 * k.val = k.val; omega

/-- The stacked-weights block is the whole stacked array. -/
theorem blk3 (k : Fin 1024) (n : Fin 2048) : iblk m c 3 t (ix2 k n) = (V m c main_v1 : S1024x2048.Idx → EReal) (ix2 k n) := by
  obtain ⟨-, -, -, -, -, -, e, e', -⟩ := idx_facts t
  show V m c main_v1 (((cfg0.win 3).blk t).view.emb (ix2 k n)) = _
  refine congrArg _ (funext fun a => Fin.ext ?_)
  match a with
  | ⟨0, _⟩ => show win0_3.index t (0 : Fin 2) * 1024 + 1 * k.val = k.val; omega
  | ⟨1, _⟩ => show win0_3.index t (1 : Fin 2) * 2048 + 1 * n.val = n.val; omega

/-- The bias-row block is the whole one-row array. -/
theorem blk4 (n : Fin 2048) : iblk m c 4 t (ix2 (0 : Fin 1) n) = (V m c main_v2 : S1x2048.Idx → EReal) (ix2 (0 : Fin 1) n) := by
  obtain ⟨-, -, -, -, -, -, -, -, e, e', -⟩ := idx_facts t
  show V m c main_v2 (((cfg0.win 4).blk t).view.emb (ix2 (0 : Fin 1) n)) = _
  refine congrArg _ (funext fun a => Fin.ext ?_)
  match a with
  | ⟨0, _⟩ => show win0_4.index t (0 : Fin 2) * 1 + 1 * 0 = 0; omega
  | ⟨1, _⟩ => show win0_4.index t (1 : Fin 2) * 2048 + 1 * n.val = n.val; omega

/-- The normalisation-weight block is the whole one-row array. -/
theorem blk5 (k : Fin 512) : iblk m c 5 t (ix2 (0 : Fin 1) k) = (V m c main_v3 : S1x512.Idx → EReal) (ix2 (0 : Fin 1) k) := by
  obtain ⟨-, -, -, -, -, -, -, -, -, -, e, e', -⟩ := idx_facts t
  show V m c main_v3 (((cfg0.win 5).blk t).view.emb (ix2 (0 : Fin 1) k)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

/-- The normalisation-bias block is the whole one-row array. -/
theorem blk6 (k : Fin 512) : iblk m c 6 t (ix2 (0 : Fin 1) k) = (V m c main_v4 : S1x512.Idx → EReal) (ix2 (0 : Fin 1) k) := by
  obtain ⟨-, -, -, -, -, -, -, -, -, -, -, -, e, e', -⟩ := idx_facts t
  show V m c main_v4 (((cfg0.win 6).blk t).view.emb (ix2 (0 : Fin 1) k)) = _
  refine congrArg _ (funext fun a => Fin.ext ?_)
  match a with
  | ⟨0, _⟩ => show win0_6.index t (0 : Fin 2) * 1 + 1 * 0 = 0; omega
  | ⟨1, _⟩ => show win0_6.index t (1 : Fin 2) * 512 + 1 * k.val = k.val; omega

/-- Entry `(p, j)` of a result block at point `t` is entry `(512·t + p, j)` of the result array. -/
theorem emb7 (p j : Fin 512) :
    ((cfg0.win 7).blk t).view.emb (ix2 p j) = (ix2 ⟨512 * t.val + p.val, row_lt t p⟩ j : S16384x512.Idx) := by
  obtain ⟨-, -, -, -, -, -, -, -, -, -, -, -, -, -, e, e', -⟩ := idx_facts t
  refine funext fun a => Fin.ext ?_
  match a with
  | ⟨0, _⟩ => show win0_7.index t (0 : Fin 2) * 512 + 1 * p.val = 512 * t.val + p.val; omega
  | ⟨1, _⟩ => show win0_7.index t (1 : Fin 2) * 512 + 1 * j.val = j.val; omega

theorem emb8 (p j : Fin 512) :
    ((cfg0.win 8).blk t).view.emb (ix2 p j) = (ix2 ⟨512 * t.val + p.val, row_lt t p⟩ j : S16384x512.Idx) := by
  obtain ⟨-, -, -, -, -, -, -, -, -, -, -, -, -, -, -, -, e, e'⟩ := idx_facts t
  refine funext fun a => Fin.ext ?_
  match a with
  | ⟨0, _⟩ => show win0_8.index t (0 : Fin 2) * 512 + 1 * p.val = 512 * t.val + p.val; omega
  | ⟨1, _⟩ => show win0_8.index t (1 : Fin 2) * 512 + 1 * j.val = j.val; omega

end Blocks

/-! ## What a point writes back -/

/-- Point `t` writes back block `t` of the cell state `cellArr` of the arguments. -/
theorem flushed8_eq (c : Dev nD) (hr : RealArgs m c) (t : Fin cfg0.N) :
    (dats m 0 c).flushed 8 t
      = ((cfg0.win 8).blk t).view.read (Elt Ideal) (cellArr (argX m c) (argH m c) (argC m c) (argWi m c) (argWh m c) (argB m c)) := by
  show (cfg0.win 8).cut (grid0.coords t) ((dats m 0 c).after 8 t) = _
  rw [after0_8]
  unfold out0_8
  rw [View.canon_unit_zero hz]
  simp only [View.ld_unit_zero (S := S512x512) hz, View.ld_unit_zero (S := S1024x2048) hz, View.ld_unit_zero (S := S1x2048) hz]
  refine ext_block _ _ fun p j => ?_
  show _ = cellArr (argX m c) (argH m c) (argC m c) (argWi m c) (argWh m c) (argB m c) (((cfg0.win 8).blk t).view.emb (ix2 p j))
  rw [emb8 t p j]
  exact cell_block (iblk m c 0 t) (iblk m c 1 t) (iblk m c 2 t) (iblk m c 3 t) (iblk m c 4 t)
    (argX m c) (argH m c) (argC m c) (argWi m c) (argWh m c) (argB m c) ⟨512 * t.val + p.val, row_lt t p⟩ p j
    (blk0 m c t p) (blk1 m c t p) (blk2 m c t p)
    (fun k n => (blk3 m c t _ n).trans (V_stack_upper m c k n)) (fun k n => (blk3 m c t _ n).trans (V_stack_lower m c k n))
    (fun n => (blk4 m c t n).trans (V_bias_row m c n))
    hr.x hr.h hr.cp hr.wi hr.wh hr.b

/-- Point `t` writes back block `t` of the normalised hidden state `normArr` of the arguments. -/
theorem flushed7_eq (c : Dev nD) (hr : RealArgs m c) (t : Fin cfg0.N) :
    (dats m 0 c).flushed 7 t
      = ((cfg0.win 7).blk t).view.read (Elt Ideal) (normArr (argX m c) (argH m c) (argC m c) (argWi m c) (argWh m c) (argB m c) (argLw m c) (argLb m c)) := by
  show (cfg0.win 7).cut (grid0.coords t) ((dats m 0 c).after 7 t) = _
  rw [after0_7]
  unfold out0_7
  rw [View.canon_unit_zero hz]
  simp only [View.ld_unit_zero (S := S512x512) hz, View.ld_unit_zero (S := S1024x2048) hz, View.ld_unit_zero (S := S1x2048) hz,
    View.ld_unit_zero (S := S1x512) hz]
  refine ext_block _ _ fun p j => ?_
  show _ = normArr (argX m c) (argH m c) (argC m c) (argWi m c) (argWh m c) (argB m c) (argLw m c) (argLb m c) (((cfg0.win 7).blk t).view.emb (ix2 p j))
  rw [emb7 t p j]
  exact norm_block (iblk m c 0 t) (iblk m c 1 t) (iblk m c 2 t) (iblk m c 3 t) (iblk m c 4 t) (iblk m c 5 t) (iblk m c 6 t)
    (argX m c) (argH m c) (argC m c) (argWi m c) (argWh m c) (argB m c) (argLw m c) (argLb m c) ⟨512 * t.val + p.val, row_lt t p⟩ p j
    (blk0 m c t p) (blk1 m c t p) (blk2 m c t p)
    (fun k n => (blk3 m c t _ n).trans (V_stack_upper m c k n)) (fun k n => (blk3 m c t _ n).trans (V_stack_lower m c k n))
    (fun n => (blk4 m c t n).trans (V_bias_row m c n))
    (fun k => (blk5 m c t k).trans (V_lnw_row m c k)) (fun k => (blk6 m c t k).trans (V_lnb_row m c k))
    hr.x hr.h hr.cp hr.wi hr.wh hr.b

/-! ## The blocks cover the arrays -/

/-- An index is in point `t`'s block of the first result iff each coordinate is in the block's range. -/
theorem mem_blk7 (t : Fin cfg0.N) (i : S16384x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v5_0).slice (win0_7.rect t)).set ↔ _
  rw [View.set_slice_whole, Rect.mem_set_unit]
  exact Iff.rfl

theorem mem_blk8 (t : Fin cfg0.N) (i : S16384x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v5_1).slice (win0_8.rect t)).set ↔ _
  rw [View.set_slice_whole, Rect.mem_set_unit]
  exact Iff.rfl

/-- Row `r` is written by point `r / 512`. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 32 := N_0
  have ht : (i 0).val / 512 < cfg0.N := by rw [hN]; omega
  obtain ⟨-, -, -, -, -, -, -, -, -, -, -, -, -, -, e, e', -⟩ := idx_facts ⟨(i 0).val / 512, ht⟩
  refine ⟨⟨(i 0).val / 512, ht⟩, flush0_7 _, ?_⟩
  rw [mem_blk7]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e]; show (i 0).val / 512 * 512 ≤ (i 0).val ∧ (i 0).val < (i 0).val / 512 * 512 + 512; omega
  | ⟨1, _⟩ =>
    show win0_7.index ⟨(i 0).val / 512, ht⟩ (1 : Fin 2) * 512 ≤ (i 1).val ∧ (i 1).val < win0_7.index ⟨(i 0).val / 512, ht⟩ (1 : Fin 2) * 512 + 512
    rw [e']; omega

theorem cover8 (i : S16384x512.Idx) : ∃ t : Fin cfg0.N, (cfg0.win 8).flush t = true ∧ i ∈ ((cfg0.win 8).blk t).view.set := by
  have hi0 : (i 0).val < 16384 := (i 0).isLt
  have hi1 : (i 1).val < 512 := (i 1).isLt
  have hN : cfg0.N = 32 := N_0
  have ht : (i 0).val / 512 < cfg0.N := by rw [hN]; omega
  obtain ⟨-, -, -, -, -, -, -, -, -, -, -, -, -, -, -, -, e, e'⟩ := idx_facts ⟨(i 0).val / 512, ht⟩
  refine ⟨⟨(i 0).val / 512, ht⟩, flush0_8 _, ?_⟩
  rw [mem_blk8]
  intro a
  match a with
  | ⟨0, _⟩ =>
    show win0_8.index ⟨(i 0).val / 512, ht⟩ (0 : Fin 2) * 512 ≤ (i 0).val ∧ (i 0).val < win0_8.index ⟨(i 0).val / 512, ht⟩ (0 : Fin 2) * 512 + 512
    rw [e]; show (i 0).val / 512 * 512 ≤ (i 0).val ∧ (i 0).val < (i 0).val / 512 * 512 + 512; omega
  | ⟨1, _⟩ =>
    show win0_8.index ⟨(i 0).val / 512, ht⟩ (1 : Fin 2) * 512 ≤ (i 1).val ∧ (i 1).val < win0_8.index ⟨(i 0).val / 512, ht⟩ (1 : Fin 2) * 512 + 512
    rw [e']; omega

/-! ## The arrays after the run -/

/-- The first result array ends holding the normalised hidden state of the arguments. -/
theorem final7 (c : Dev nD) (hr : RealArgs m c) :
    (dats m 0 c).arrAt 7 cfg0.N = normArr (argX m c) (argH m c) (argC m c) (argWi m c) (argWh m c) (argB m c) (argLw m c) (argLb m c) :=
  (dats m 0 c).arrAt_eq_of_cover 7 (normArr (argX m c) (argH m c) (argC m c) (argWi m c) (argWh m c) (argB m c) (argLw m c) (argLb m c))
    (fun t _ => flushed7_eq m c hr t) cover7

/-- The second result array ends holding the cell state of the arguments. -/
theorem final8 (c : Dev nD) (hr : RealArgs m c) :
    (dats m 0 c).arrAt 8 cfg0.N = cellArr (argX m c) (argH m c) (argC m c) (argWi m c) (argWh m c) (argB m c) :=
  (dats m 0 c).arrAt_eq_of_cover 8 (cellArr (argX m c) (argH m c) (argC m c) (argWi m c) (argWh m c) (argB m c))
    (fun t _ => flushed8_eq m c hr t) cover8

/-- The run of the tiled program, read: from a memory whose inputs, weights and bias are real, every weakly fair
    execution terminates with the two result arrays at `normArr` and `cellArr` of the arguments, the arguments unchanged. -/
theorem run (hr : ∀ c : Dev nD, RealArgs m c) :
    θ_run defs (onTc (τ := τ) (main (F := Ideal))) ⟨m, fun _ => 0, ρ⟩ fun r => ∀ c : Dev nD,
      r.2.mem ((c : Thread nD τ).loc main_v5_0) = normArr (argX m c) (argH m c) (argC m c) (argWi m c) (argWh m c) (argB m c) (argLw m c) (argLb m c)
      ∧ r.2.mem ((c : Thread nD τ).loc main_v5_1) = cellArr (argX m c) (argH m c) (argC m c) (argWi m c) (argWh m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final7 m c (hr c)), (h c).2.1.trans (final8 m c (hr c)), (h c).2.2⟩)
    (Cert.KernelIdeal.Value.run_blocks m ρ)

end Cert.KernelIdeal.Final

end
-- ==== Proof.RefRun.lean ====
/-
  The reference program run as one straight line of host operations.

  The program computes, for every one of the 16384 rows, the four gates of an LSTM cell from two matrix products and
  a bias, the new cell state and the hidden state, and then normalises each hidden row with its mean and its
  variance. The variance is computed by a function of its own, which the program calls (and which in turn calls a
  selection between its quotient and a fallback value when the divisor is not positive); here the callee's operations
  are listed in place at the call, so the whole program is one list of 84 operations. Running the list leaves the two
  results at the composition of the operations, written below with one named function per stage: the gates
  (`rGates`), the logistic function as the program spells it (`rLogistic`), the cell state (`rCell`), the hidden
  state (`rHid`), the row mean (`rMean`), the row variance (`rVar`) and the normalised row (`rNorm`).
-/
import proofs.«141113_j65618510348829_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stages as functions of whole arrays -/

/-- The gate pre-activations: `x · W_i + h · W_h + b`, the bias repeated over the rows. -/
def rGates (x h : FVec F S16384x512 .f32) (wi wh : FVec F S512x2048 .f32) (b : FVec F S2048 .f32) : FVec F S16384x2048 .f32 :=
  addf (addf (Host.dotGeneral dot_S16384x512_S512x2048_S16384x2048_1_0_0_1_n_n none x wi)
      (Host.dotGeneral dot_S16384x512_S512x2048_S16384x2048_1_0_0_1_n_n none h wh))
    (broadcastInDim S16384x2048 ![0, 1] bcast_S1x2048_S16384x2048_0_1 (broadcastInDim S1x2048 ![1] bcast_S2048_S1x2048_1 b))

/-- The logistic function as the program spells it: `1 / (1 + e^(−z))`. -/
def rLogistic (z : FVec F S16384x512 .f32) : FVec F S16384x512 .f32 :=
  Host.divf (broadcastInDim S16384x512 ![] bcast_S_S16384x512 (constant S_ .f32 0x3F800000#32))
    (addf (broadcastInDim S16384x512 ![] bcast_S_S16384x512 (constant S_ .f32 0x3F800000#32)) (Host.exp (Host.negf z)))

/-- The new cell state: forget gate times the old state plus input gate times the candidate. -/
def rCell (g : FVec F S16384x2048 .f32) (cp : FVec F S16384x512 .f32) : FVec F S16384x512 .f32 :=
  addf (mulf (rLogistic (extractStridedSlice S16384x512 ![0, 512] g slices_S16384x2048_S16384x512_0_512)) cp)
    (mulf (rLogistic (extractStridedSlice S16384x512 ![0, 0] g slices_S16384x2048_S16384x512_0_0))
      (Host.tanh (extractStridedSlice S16384x512 ![0, 1024] g slices_S16384x2048_S16384x512_0_1024)))

/-- The hidden state before normalisation: output gate times `tanh` of the cell state. -/
def rHid (g : FVec F S16384x2048 .f32) (cp : FVec F S16384x512 .f32) : FVec F S16384x512 .f32 :=
  mulf (rLogistic (extractStridedSlice S16384x512 ![0, 1536] g slices_S16384x2048_S16384x512_0_1536)) (Host.tanh (rCell g cp))

/-- The mean of each row, kept as a column: the row sum from zero, divided by 512. -/
def rMean (hh : FVec F S16384x512 .f32) : FVec F S16384x1 .f32 :=
  Host.divf (broadcastInDim S16384x1 ![0] bcast_S16384_S16384x1_0
      (Host.reduceAdd hh (constant S_ .f32 0x00000000#32) reducesTo_S16384x512_S16384_d1 h_S_))
    (broadcastInDim S16384x1 ![] bcast_S_S16384x1 (constant S_ .f32 0x44000000#32))

/-- The divisor of the variance: `512 − d` for the integer `d = 0` of degrees of freedom given up. -/
def rDivisor : FVec F S_ .f32 := subf (constant S_ .f32 0x44000000#32) (sitofp .f32 (constantI S_ 32 0#32))

/-- The variance of each row, kept as a column: the sum of the squared deviations from the mean, divided by the
    divisor where the divisor is positive (and a fallback word where it is not). -/
def rVar (hh : FVec F S16384x512 .f32) : FVec F S16384x1 .f32 :=
  select (broadcastInDim S16384x1 ![] bcast_S_S16384x1 (cmpf .ogt (rDivisor (F := F)) (constant S_ .f32 0x00000000#32)))
    (Host.divf (broadcastInDim S16384x1 ![0] bcast_S16384_S16384x1_0
        (Host.reduceAdd (mulf (subf hh (broadcastInDim S16384x512 ![0, 1] bcast_S16384x1_S16384x512_0_1 (rMean hh)))
            (subf hh (broadcastInDim S16384x512 ![0, 1] bcast_S16384x1_S16384x512_0_1 (rMean hh))))
          (constant S_ .f32 0x00000000#32) reducesTo_S16384x512_S16384_d1 h_S_))
      (broadcastInDim S16384x1 ![] bcast_S_S16384x1 (rDivisor (F := F))))
    (broadcastInDim S16384x1 ![] bcast_S_S16384x1 (id (constant S_ .f32 0x7FC00000#32)))

/-- The normalised rows: `(h − μ) · (v + ε)^(-1/2) · lw + lb`, the column of means and the column of inverse roots
    repeated along the rows, the weight and the bias repeated over the rows. -/
def rNorm (hh : FVec F S16384x512 .f32) (lw lb : FVec F S512 .f32) : FVec F S16384x512 .f32 :=
  addf (mulf (mulf (subf hh (broadcastInDim S16384x512 ![0, 1] bcast_S16384x1_S16384x512_0_1 (rMean hh)))
        (broadcastInDim S16384x512 ![0, 1] bcast_S16384x1_S16384x512_0_1
          (Host.rsqrt (addf (rVar hh) (broadcastInDim S16384x1 ![] bcast_S_S16384x1 (constant S_ .f32 0x3727C5AC#32))))))
      (broadcastInDim S16384x512 ![0, 1] bcast_S1x512_S16384x512_0_1 (broadcastInDim S1x512 ![1] bcast_S512_S1x512_1 lw)))
    (broadcastInDim S16384x512 ![0, 1] bcast_S1x512_S16384x512_0_1 (broadcastInDim S1x512 ![1] bcast_S512_S1x512_1 lb))

/-! ## The program as a list of operations -/

/-- The program's 84 operations in order, the variance function's 20 and its selection's 3 listed in place at the
    call, over the call's own buffers. -/
abbrev ops : List (HloOp τ sig (Elt F)) :=
  [
    binary main_arg0 main_arg3 main_v0 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    binary main_arg1 main_arg4 main_v1 ((fun l r => Host.dotGeneral dot_S16384x512_S512x2048_S16384x2048_1_0_0_1_n_n none l r) : (⟨S16384x512, .f32⟩ : BufTy).Contents (Elt F) → (⟨S512x2048, .f32⟩ : BufTy).Contents (Elt F) → (⟨S16384x2048, .f32⟩ : BufTy).Contents (Elt F)),
    binary main_v0 main_v1 main_v2 (addf : (⟨S16384x2048, .f32⟩ : BufTy).Contents (Elt F) → (⟨S16384x2048, .f32⟩ : BufTy).Contents (Elt F) → (⟨S16384x2048, .f32⟩ : BufTy).Contents (Elt F)),
    unary main_arg5 main_v3 (broadcastInDim S1x2048 ![1] bcast_S2048_S1x2048_1 : (⟨S2048, .f32⟩ : BufTy).Contents (Elt F) → (⟨S1x2048, .f32⟩ : BufTy).Contents (Elt F)),
    unary main_v3 main_v4 (broadcastInDim S16384x2048 ![0, 1] bcast_S1x2048_S16384x2048_0_1 : (⟨S1x2048, .f32⟩ : BufTy).Contents (Elt F) → (⟨S16384x2048, .f32⟩ : BufTy).Contents (Elt F)),
    binary main_v2 main_v4 main_v5 (addf : (⟨S16384x2048, .f32⟩ : BufTy).Contents (Elt F) → (⟨S16384x2048, .f32⟩ : BufTy).Contents (Elt F) → (⟨S16384x2048, .f32⟩ : BufTy).Contents (Elt F)),
    unary main_v5 main_v6 ((extractStridedSlice S16384x512 ![0, 0] · slices_S16384x2048_S16384x512_0_0) : (⟨S16384x2048, .f32⟩ : BufTy).Contents (Elt F) → (⟨S16384x512, .f32⟩ : BufTy).Contents (Elt F)),
    unary main_v5 main_v7 ((extractStridedSlice S16384x512 ![0, 512] · slices_S16384x2048_S16384x512_0_512) : (⟨S16384x2048, .f32⟩ : BufTy).Contents (Elt F) → (⟨S16384x512, .f32⟩ : BufTy).Contents (Elt F)),
    unary main_v5 main_v8 ((extractStridedSlice S16384x512 ![0, 1024] · slices_S16384x2048_S16384x512_0_1024) : (⟨S16384x2048, .f32⟩ : BufTy).Contents (Elt F) → (⟨S16384x512, .f32⟩ : BufTy).Contents (Elt F)),
    unary main_v5 main_v9 ((extractStridedSlice S16384x512 ![0, 1536] · slices_S16384x2048_S16384x512_0_1536) : (⟨S16384x2048, .f32⟩ : BufTy).Contents (Elt F) → (⟨S16384x512, .f32⟩ : BufTy).Contents (Elt F)),
    unary main_v6 main_v10 (Host.negf : (⟨S16384x512, .f32⟩ : BufTy).Contents (Elt F) → (⟨S16384x512, .f32⟩ : BufTy).Contents (Elt F)),
    unary main_v10 main_v11 (Host.exp : (⟨S16384x512, .f32⟩ : BufTy).Contents (Elt F) → (⟨S16384x512, .f32⟩ : BufTy).Contents (Elt F)),
    nullary main_cst (constant S_ .f32 0x3F800000#32),
    unary main_cst main_v12 (broadcastInDim S16384x512 ![] bcast_S_S16384x512 : (⟨S_, .f32⟩ : BufTy).Contents (Elt F) → (⟨S16384x512, .f32⟩ : BufTy).Contents (Elt F)),
    binary main_v12 main_v11 main_v13 (addf : (⟨S16384x512, .f32⟩ : BufTy).Contents (Elt F) → (⟨S16384x512, .f32⟩ : BufTy).Contents (Elt F) → (⟨S16384x512, .f32⟩ : BufTy).Contents (Elt F)),
    nullary main_cst_0 (constant S_ .f32 0x3F800000#32),
    unary main_cst_0 main_v14 (broadcastInDim S16384x512 ![] bcast_S_S16384x512 : (⟨S_, .f32⟩ : BufTy).Contents (Elt F) → (⟨S16384x512, .f32⟩ : BufTy).Contents (Elt F)),
    binary main_v14 main_v13 main_v15 (Host.divf : (⟨S16384x512, .f32⟩ : BufTy).Contents (Elt F) → (⟨S16384x512, .f32⟩ : BufTy).Contents (Elt F) → (⟨S16384x512, .f32⟩ : BufTy).Contents (Elt F)),
    unary main_v7 main_v16 (Host.negf : (⟨S16384x512, .f32⟩ : BufTy).Contents (Elt F) → (⟨S16384x512, .f32⟩ : BufTy).Contents (Elt F)),
    unary main_v16 main_v17 (Host.exp : (⟨S16384x512, .f32⟩ : BufTy).Contents (Elt F) → (⟨S16384x512, .f32⟩ : BufTy).Contents (Elt F)),
    nullary main_cst_1 (constant S_ .f32 0x3F800000#32),
    unary main_cst_1 main_v18 (broadcastInDim S16384x512 ![] bcast_S_S16384x512 : (⟨S_, .f32⟩ : BufTy).Contents (Elt F) → (⟨S16384x512, .f32⟩ : BufTy).Contents (Elt F)),
    binary main_v18 main_v17 main_v19 (addf : (⟨S16384x512, .f32⟩ : BufTy).Contents (Elt F) → (⟨S16384x512, .f32⟩ : BufTy).Contents (Elt F) → (⟨S16384x512, .f32⟩ : BufTy).Contents (Elt F)),
    nullary main_cst_2 (constant S_ .f32 0x3F800000#32),
    unary main_cst_2 main_v20 (broadcastInDim S16384x512 ![] bcast_S_S16384x512 : (⟨S_, .f32⟩ : BufTy).Contents (Elt F) → (⟨S16384x512, .f32⟩ : BufTy).Contents (Elt F)),
    binary main_v20 main_v19 main_v21 (Host.divf : (⟨S16384x512, .f32⟩ : BufTy).Contents (Elt F) → (⟨S16384x512, .f32⟩ : BufTy).Contents (Elt F) → (⟨S16384x512, .f32⟩ : BufTy).Contents (Elt F)),
    unary main_v8 main_v22 (Host.tanh : (⟨S16384x512, .f32⟩ : BufTy).Contents (Elt F) → (⟨S16384x512, .f32⟩ : BufTy).Contents (Elt F)),
    unary main_v9 main_v23 (Host.negf : (⟨S16384x512, .f32⟩ : BufTy).Contents (Elt F) → (⟨S16384x512, .f32⟩ : BufTy).Contents (Elt F)),
    unary main_v23 main_v24 (Host.exp : (⟨S16384x512, .f32⟩ : BufTy).Contents (Elt F) → (⟨S16384x512, .f32⟩ : BufTy).Contents (Elt F)),
    nullary main_cst_3 (constant S_ .f32 0x3F800000#32),
    unary main_cst_3 main_v25 (broadcastInDim S16384x512 ![] bcast_S_S16384x512 : (⟨S_, .f32⟩ : BufTy).Contents (Elt F) → (⟨S16384x512, .f32⟩ : BufTy).Contents (Elt F)),
    binary main_v25 main_v24 main_v26 (addf : (⟨S16384x512, .f32⟩ : BufTy).Contents (Elt F) → (⟨S16384x512, .f32⟩ : BufTy).Contents (Elt F) → (⟨S16384x512, .f32⟩ : BufTy).Contents (Elt F)),
    nullary main_cst_4 (constant S_ .f32 0x3F800000#32),
    unary main_cst_4 main_v27 (broadcastInDim S16384x512 ![] bcast_S_S16384x512 : (⟨S_, .f32⟩ : BufTy).Contents (Elt F) → (⟨S16384x512, .f32⟩ : BufTy).Contents (Elt F)),
    binary main_v27 main_v26 main_v28 (Host.divf : (⟨S16384x512, .f32⟩ : BufTy).Contents (Elt F) → (⟨S16384x512, .f32⟩ : BufTy).Contents (Elt F) → (⟨S16384x512, .f32⟩ : BufTy).Contents (Elt F)),
    binary main_v21 main_arg2 main_v29 (mulf : (⟨S16384x512, .f32⟩ : BufTy).Contents (Elt F) → (⟨S16384x512, .f32⟩ : BufTy).Contents (Elt F) → (⟨S16384x512, .f32⟩ : BufTy).Contents (Elt F)),
    binary main_v15 main_v22 main_v30 (mulf : (⟨S16384x512, .f32⟩ : BufTy).Contents (Elt F) → (⟨S16384x512, .f32⟩ : BufTy).Contents (Elt F) → (⟨S16384x512, .f32⟩ : BufTy).Contents (Elt F)),
    binary main_v29 main_v30 main_v31 (addf : (⟨S16384x512, .f32⟩ : BufTy).Contents (Elt F) → (⟨S16384x512, .f32⟩ : BufTy).Contents (Elt F) → (⟨S16384x512, .f32⟩ : BufTy).Contents (Elt F)),
    unary main_v31 main_v32 (Host.tanh : (⟨S16384x512, .f32⟩ : BufTy).Contents (Elt F) → (⟨S16384x512, .f32⟩ : BufTy).Contents (Elt F)),
    binary main_v28 main_v32 main_v33 (mulf : (⟨S16384x512, .f32⟩ : BufTy).Contents (Elt F) → (⟨S16384x512, .f32⟩ : BufTy).Contents (Elt F) → (⟨S16384x512, .f32⟩ : BufTy).Contents (Elt F)),
    nullary main_cst_5 (constant S_ .f32 0x00000000#32),
    binary main_v33 main_cst_5 main_v34 ((fun x v => Host.reduceAdd x v reducesTo_S16384x512_S16384_d1 h_S_) : (⟨S16384x512, .f32⟩ : BufTy).Contents (Elt F) → (⟨S_, .f32⟩ : BufTy).Contents (Elt F) → (⟨S16384, .f32⟩ : BufTy).Contents (Elt F)),
    unary main_v34 main_v35 (broadcastInDim S16384x1 ![0] bcast_S16384_S16384x1_0 : (⟨S16384, .f32⟩ : BufTy).Contents (Elt F) → (⟨S16384x1, .f32⟩ : BufTy).Contents (Elt F)),
    nullary main_cst_6 (constant S_ .f32 0x44000000#32),
    unary main_cst_6 main_v36 (broadcastInDim S16384x1 ![] bcast_S_S16384x1 : (⟨S_, .f32⟩ : BufTy).Contents (Elt F) → (⟨S16384x1, .f32⟩ : BufTy).Contents (Elt F)),
    binary main_v35 main_v36 main_v37 (Host.divf : (⟨S16384x1, .f32⟩ : BufTy).Contents (Elt F) → (⟨S16384x1, .f32⟩ : BufTy).Contents (Elt F) → (⟨S16384x1, .f32⟩ : BufTy).Contents (Elt F)),
    nullary main_c (constantI S_ 32 0#32),
    TRef.nullary main_call0.cst (constant S_ .f32 0x00000000#32),
    TRef.binary (.of main_v33) main_call0.cst main_call0.v0 (fun x v => Host.reduceAdd x v reducesTo_S16384x512_S16384_d1 h_S_),
    TRef.unary main_call0.v0 main_call0.v1 (broadcastInDim S16384x1 ![0] bcast_S16384_S16384x1_0),
    TRef.nullary main_call0.cst_0 (constant S_ .f32 0x44000000#32),
    TRef.unary main_call0.cst_0 main_call0.v2 (broadcastInDim S16384x1 ![] bcast_S_S16384x1),
    TRef.binary main_call0.v1 main_call0.v2 main_call0.v3 Host.divf,
    TRef.unary main_call0.v3 main_call0.v4 (broadcastInDim S16384x512 ![0, 1] bcast_S16384x1_S16384x512_0_1),
    TRef.binary (.of main_v33) main_call0.v4 main_call0.v5 subf,
    TRef.binary main_call0.v5 main_call0.v5 main_call0.v6 mulf,
    TRef.unary (.of main_c) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x512_S16384_d1 h_S_),
    TRef.unary main_call0.v9 main_call0.v10 (broadcastInDim S16384x1 ![0] bcast_S16384_S16384x1_0),
    TRef.unary main_call0.v8 main_call0.v11 (broadcastInDim S16384x1 ![] bcast_S_S16384x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S16384x1 ![] bcast_S_S16384x1),
    TRef.ternary main_call0.v13 main_call0.v12 main_call0.call0.v1 main_call0.call0.v2 (fun p a b => select (broadcastInDim S16384x1 ![] bcast_S_S16384x1 p) a b),
    unary main_v37 main_v39 (broadcastInDim S16384x512 ![0, 1] bcast_S16384x1_S16384x512_0_1 : (⟨S16384x1, .f32⟩ : BufTy).Contents (Elt F) → (⟨S16384x512, .f32⟩ : BufTy).Contents (Elt F)),
    binary main_v33 main_v39 main_v40 (subf : (⟨S16384x512, .f32⟩ : BufTy).Contents (Elt F) → (⟨S16384x512, .f32⟩ : BufTy).Contents (Elt F) → (⟨S16384x512, .f32⟩ : BufTy).Contents (Elt F)),
    nullary main_cst_7 (constant S_ .f32 0x3727C5AC#32),
    unary main_cst_7 main_v41 (broadcastInDim S16384x1 ![] bcast_S_S16384x1 : (⟨S_, .f32⟩ : BufTy).Contents (Elt F) → (⟨S16384x1, .f32⟩ : BufTy).Contents (Elt F)),
    binary main_v38 main_v41 main_v42 (addf : (⟨S16384x1, .f32⟩ : BufTy).Contents (Elt F) → (⟨S16384x1, .f32⟩ : BufTy).Contents (Elt F) → (⟨S16384x1, .f32⟩ : BufTy).Contents (Elt F)),
    unary main_v42 main_v43 (Host.rsqrt : (⟨S16384x1, .f32⟩ : BufTy).Contents (Elt F) → (⟨S16384x1, .f32⟩ : BufTy).Contents (Elt F)),
    unary main_v43 main_v44 (broadcastInDim S16384x512 ![0, 1] bcast_S16384x1_S16384x512_0_1 : (⟨S16384x1, .f32⟩ : BufTy).Contents (Elt F) → (⟨S16384x512, .f32⟩ : BufTy).Contents (Elt F)),
    binary main_v40 main_v44 main_v45 (mulf : (⟨S16384x512, .f32⟩ : BufTy).Contents (Elt F) → (⟨S16384x512, .f32⟩ : BufTy).Contents (Elt F) → (⟨S16384x512, .f32⟩ : BufTy).Contents (Elt F)),
    unary main_arg6 main_v46 (broadcastInDim S1x512 ![1] bcast_S512_S1x512_1 : (⟨S512, .f32⟩ : BufTy).Contents (Elt F) → (⟨S1x512, .f32⟩ : BufTy).Contents (Elt F)),
    unary main_v46 main_v47 (broadcastInDim S16384x512 ![0, 1] bcast_S1x512_S16384x512_0_1 : (⟨S1x512, .f32⟩ : BufTy).Contents (Elt F) → (⟨S16384x512, .f32⟩ : BufTy).Contents (Elt F)),
    binary main_v45 main_v47 main_v48 (mulf : (⟨S16384x512, .f32⟩ : BufTy).Contents (Elt F) → (⟨S16384x512, .f32⟩ : BufTy).Contents (Elt F) → (⟨S16384x512, .f32⟩ : BufTy).Contents (Elt F)),
    unary main_arg7 main_v49 (broadcastInDim S1x512 ![1] bcast_S512_S1x512_1 : (⟨S512, .f32⟩ : BufTy).Contents (Elt F) → (⟨S1x512, .f32⟩ : BufTy).Contents (Elt F)),
    unary main_v49 main_v50 (broadcastInDim S16384x512 ![0, 1] bcast_S1x512_S16384x512_0_1 : (⟨S1x512, .f32⟩ : BufTy).Contents (Elt F) → (⟨S16384x512, .f32⟩ : BufTy).Contents (Elt F)),
    binary main_v48 main_v50 main_v51 (addf : (⟨S16384x512, .f32⟩ : BufTy).Contents (Elt F) → (⟨S16384x512, .f32⟩ : BufTy).Contents (Elt F) → (⟨S16384x512, .f32⟩ : BufTy).Contents (Elt F)) ]

set_option maxRecDepth 8192 in
set_option maxHeartbeats 4000000 in
/-- The program is that straight line: the two windows of its statements and the two callees' bodies unfolded, and the
    sequencing re-associated. -/
theorem main_eq (c : Dev nD) : main (F := F) c = seq ops := by
  simp only [main, main_part0, main_part1, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches only buffers of the device. -/
theorem ops_sub : (ops : List (HloOp τ sig (Elt F))).Forall fun op => op.bufs ⊆ tcRefs τ sig :=
  ⟨
    binary_bufs_sub .., binary_bufs_sub .., binary_bufs_sub .., unary_bufs_sub .., unary_bufs_sub .., binary_bufs_sub ..,
    unary_bufs_sub .., unary_bufs_sub .., unary_bufs_sub .., unary_bufs_sub .., unary_bufs_sub .., unary_bufs_sub ..,
    nullary_bufs_sub .., unary_bufs_sub .., binary_bufs_sub .., nullary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., binary_bufs_sub .., unary_bufs_sub .., binary_bufs_sub .., nullary_bufs_sub .., binary_bufs_sub ..,
    unary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., unary_bufs_sub .., binary_bufs_sub .., nullary_bufs_sub .., binary_bufs_sub ..,
    nullary_bufs_sub .., unary_bufs_sub .., unary_bufs_sub .., ternary_bufs_sub .., unary_bufs_sub .., binary_bufs_sub ..,
    nullary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-! ## The results of the run -/

set_option maxRecDepth 16384 in
set_option maxHeartbeats 4000000 in
/-- After the 84 operations the second result's buffer holds the cell state: the operations' composition, read off the
    list, is `rCell` of `rGates` of the arguments. -/
theorem cell_result (V : Valuation τ sig (Elt F)) :
    after ops V (main_v31 : DevRef τ sig)
      = rCell (rGates (V (main_arg0 : DevRef τ sig)) (V (main_arg1 : DevRef τ sig)) (V (main_arg3 : DevRef τ sig))
          (V (main_arg4 : DevRef τ sig)) (V (main_arg5 : DevRef τ sig))) (V (main_arg2 : DevRef τ sig)) := by
  after_results_simp
  rfl

set_option maxRecDepth 16384 in
set_option maxHeartbeats 8000000 in
/-- After the 84 operations the first result's buffer holds the normalised hidden state: `rNorm` of `rHid` of `rGates`
    of the arguments (the callee's mean is the caller's mean: the same operations of the same array). -/
theorem norm_result (V : Valuation τ sig (Elt F)) :
    after ops V (main_v51 : DevRef τ sig)
      = rNorm (rHid (rGates (V (main_arg0 : DevRef τ sig)) (V (main_arg1 : DevRef τ sig)) (V (main_arg3 : DevRef τ sig))
          (V (main_arg4 : DevRef τ sig)) (V (main_arg5 : DevRef τ sig))) (V (main_arg2 : DevRef τ sig)))
        (V (main_arg6 : DevRef τ sig)) (V (main_arg7 : DevRef τ sig)) := by
  after_results_simp
  rfl

theorem arg0_kept (V : Valuation τ sig (Elt F)) :
    after ops V (main_arg0 : DevRef τ sig) = V (main_arg0 : DevRef τ sig) := by
  after_results_simp

theorem arg1_kept (V : Valuation τ sig (Elt F)) :
    after ops V (main_arg1 : DevRef τ sig) = V (main_arg1 : DevRef τ sig) := by
  after_results_simp

theorem arg2_kept (V : Valuation τ sig (Elt F)) :
    after ops V (main_arg2 : DevRef τ sig) = V (main_arg2 : DevRef τ sig) := by
  after_results_simp

theorem arg3_kept (V : Valuation τ sig (Elt F)) :
    after ops V (main_arg3 : DevRef τ sig) = V (main_arg3 : DevRef τ sig) := by
  after_results_simp

theorem arg4_kept (V : Valuation τ sig (Elt F)) :
    after ops V (main_arg4 : DevRef τ sig) = V (main_arg4 : DevRef τ sig) := by
  after_results_simp

theorem arg5_kept (V : Valuation τ sig (Elt F)) :
    after ops V (main_arg5 : DevRef τ sig) = V (main_arg5 : DevRef τ sig) := by
  after_results_simp

theorem arg6_kept (V : Valuation τ sig (Elt F)) :
    after ops V (main_arg6 : DevRef τ sig) = V (main_arg6 : DevRef τ sig) := by
  after_results_simp

theorem arg7_kept (V : Valuation τ sig (Elt F)) :
    after ops V (main_arg7 : DevRef τ sig) = V (main_arg7 : DevRef τ sig) := by
  after_results_simp

/-- On every device, from any memory with zero counters: every weakly fair execution of the program terminates with the
    two results at `rNorm` and `rCell` of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = rNorm (rHid (rGates (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg2))) (m ((c.tc : Thread nD τ).loc main_arg6)) (m ((c.tc : Thread nD τ).loc main_arg7))
      ∧ r.2.mem ((c.tc : Thread nD τ).loc main_v31)
          = rCell (rGates (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v51).trans (norm_result _), (h c main_v31).trans (cell_result _),
      (h c main_arg0).trans (arg0_kept _),
      (h c main_arg1).trans (arg1_kept _),
      (h c main_arg2).trans (arg2_kept _),
      (h c main_arg3).trans (arg3_kept _),
      (h c main_arg4).trans (arg4_kept _),
      (h c main_arg5).trans (arg5_kept _),
      (h c main_arg6).trans (arg6_kept _),
      (h c main_arg7).trans (arg7_kept _)⟩)
    (run_seq scopedRefs_eq scopedSems_eq defs main (fun _ => ops) main_eq (fun _ => ops_sub) m ρ)

end Cert.ReferenceIdeal.HostRun

end
-- ==== Proof.LibHostRows.lean ====
/-
  Reading a host array of rows, operation by operation, at the extended reals: the host's product, its bias spread over
  the rows (a vector made a one-row matrix, then repeated), and its rectifier against a repeated zero constant. Each
  lemma takes the rows of the operand and returns the rows of the result, for arbitrary extents.
-/
import proofs.«141113_j65618510348829_2_alg».proof.Proof.LibPlainDot
import Idealize.ShloMosaic.Lib.Pipeline.Value

noncomputable section

namespace Cert.HostRows

open Idealize.ShloMosaic Idealize.ShloMosaic.ValueIdx

variable {M K N : Nat}

/-- The host's plain product: row `p` of the result is row `p` of the left operand times the matrix. -/
theorem dot_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (xr : Fin M → Fin K → EReal) (hX : ∀ p k, X (ix2 p k) = xr p k) :
    ∀ p q, Host.dotGeneral d prec X w (ix2 p q) = ∑ k : Fin K, xr p k * w (ix2 k q) := fun p q => by
  refine (Ideal.dotGeneral_apply d prec .single X w (ix2 p q)).trans ?_
  refine (Cert.PlainDot.sum_contr d hd X w p q).trans ?_
  exact Finset.sum_congr rfl fun k _ => by rw [hX p k]

/-- Adding a bias vector, made a one-row matrix and repeated over the rows. -/
theorem bias_rows (Y : FVec Ideal ⟨2, ![M, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (yr : Fin M → Fin N → EReal) (hY : ∀ p q, Y (ix2 p q) = yr p q) :
    ∀ p q, addf Y (broadcastInDim ⟨2, ![M, N]⟩ ![0, 1] h2 (broadcastInDim ⟨2, ![1, N]⟩ ![1] h1 b)) (ix2 p q) = yr p q + b (ix1 q) := fun p q => by
  rw [addf_apply, hY p q]
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  rw [broadcastInDim_apply ![1] h1 b (ix2 (0 : Fin 1) q) (ix1 q) (fun a => by
    match a with
    | ⟨0, _⟩ =>
      show q.val = if N = 1 then 0 else q.val
      split
      · have := q.isLt; omega
      · rfl)]

/-- The rectifier against the zero constant repeated over the array. -/
theorem relu_rows (Y : FVec Ideal ⟨2, ![M, N]⟩ .f32) (h0 : (⟨0, ![]⟩ : Shape).BroadcastsInDim ⟨2, ![M, N]⟩ ![])
    (yr : Fin M → Fin N → EReal) (hY : ∀ p q, Y (ix2 p q) = yr p q) :
    ∀ p q, maximumf Y (broadcastInDim ⟨2, ![M, N]⟩ ![] h0 (constant (F := Ideal) ⟨0, ![]⟩ .f32 0x00000000#32)) (ix2 p q) = max (yr p q) 0 := fun p q => by
  rw [maximumf_apply, hY p q, broadcastInDim_apply ![] h0 _ (ix2 p q) ix0 (fun a => a.elim0), constant_apply, Ideal.ofBits_zero_f32]

end Cert.HostRows

end
-- ==== Proof.RefRows.lean ====
/-
  The reference program's two results, read entry by entry.

  The reference program works on whole arrays of 16384 rows: two matrix products and a bias give the gate
  pre-activations, slices of those feed the logistic function and tanh to give the new cell state and the hidden
  state, and a mean and a variance along each row normalise the hidden state. Every one of these array operations
  acts either entry by entry or row by row, so entry (R, j) of a result depends on row R of the inputs only, and is
  the arithmetic of one row. This module reads each stage at an entry and finds there the row arithmetic in the
  spelling with sigma z = 1 / (1 + e^(-z)), the mean (0 + sum) / 512 and the variance (0 + sum of squared
  deviations) / 512.

  How an array operation is read at an entry:
    * an entrywise operation (add, multiply, subtract, divide, exp, tanh, negate, reciprocal square root) is the
      scalar operation on the operands' entries;
    * a rank-0 constant repeated over an array is that constant at every entry;
    * a vector [N] made a one-row matrix and repeated over the rows is, at (R, j), the vector's entry j;
    * a column [M, 1] repeated along the rows is, at (R, j), the column's entry of row R; a vector [M] made a
      column is, at (R, 0), the vector's entry R;
    * a slice of columns o .. o + 511 is, at (R, j), the source at (R, o + j);
    * a plain matrix product is, at (R, n), the sum over k of left (R, k) times right (k, n);
    * a sum along the rows from an initial value is, at R, the initial value plus the sum of row R.
  The variance stage also selects between its quotient and a fallback according to whether its divisor is positive;
  the divisor is the float 512 less the integer 0, so it is 512, the test answers 1 and the quotient is selected.

  Each stage lemma below is stated over an arbitrary array described by its entries, so that the stages compose
  without ever opening a large term.
-/
import proofs.«141113_j65618510348829_2_alg».proof.Proof.RefRun
import proofs.«141113_j65618510348829_2_alg».proof.Proof.ArraySpec
import proofs.«141113_j65618510348829_2_alg».proof.Proof.LibHostRows
import proofs.«141113_j65618510348829_2_alg».proof.Proof.LibRowLayer
import proofs.«141113_j65618510348829_2_alg».proof.Proof.LibTileRows
import Idealize.ShloMosaic.Lib.ValueLayout
import Idealize.ShloMosaic.Lib.Pipeline.Value

noncomputable section

open scoped BigOperators

namespace Cert.ReferenceIdeal.Rows

open Cert.ReferenceIdeal Cert.ReferenceIdeal.Gen Cert.ReferenceIdeal.HostRun Cert.LstmRow Idealize.ShloMosaic
  Idealize.ShloMosaic.ValueIdx

/-! ## Entrywise host operations at an entry -/

section Entrywise
variable {s : Shape}

/-- The host's quotient at an entry is the quotient of the entries. -/
theorem hostDivf_apply (a b : FVec Ideal s .f32) (i : s.Idx) : Host.divf a b i = Ideal.div (a i) (b i) := rfl
/-- The host's exponential at an entry. -/
theorem hostExp_apply (a : FVec Ideal s .f32) (i : s.Idx) : Host.exp a i = Ideal.exp (a i) := rfl
/-- The host's negation at an entry. -/
theorem hostNegf_apply (a : FVec Ideal s .f32) (i : s.Idx) : Host.negf a i = -(a i) := rfl
/-- The host's hyperbolic tangent at an entry. -/
theorem hostTanh_apply (a : FVec Ideal s .f32) (i : s.Idx) : Host.tanh a i = Ideal.tanh (a i) := rfl
/-- The host's reciprocal square root at an entry. -/
theorem hostRsqrt_apply (a : FVec Ideal s .f32) (i : s.Idx) : Host.rsqrt a i = Ideal.rsqrt (a i) := rfl

/-- A rank-0 constant repeated over an array of any shape is, at every entry, the float its word denotes. -/
theorem splat_apply (w : BitVec (FTy.bits .f32)) (h : S_.BroadcastsInDim s (![] : Fin 0 → Fin s.rank)) (i : s.Idx) :
    broadcastInDim s ![] h (constant (F := Ideal) S_ .f32 w) i = Ideal.ofBits .f32 w := rfl

end Entrywise

/-! ## The repetitions of a vector and of a column -/

/-- A vector [512] made a one-row matrix [1, 512] and repeated over the 16384 rows reads, at (R, j), the vector's
    entry j. -/
theorem rowvec_apply (v : FVec Ideal S512 .f32) (R : Fin 16384) (j : Fin 512) :
    broadcastInDim S16384x512 ![0, 1] bcast_S1x512_S16384x512_0_1 (broadcastInDim S1x512 ![1] bcast_S512_S1x512_1 v) (ix2 R j)
      = v (ix1 j) := by
  rw [broadcastInDim_apply ![0, 1] bcast_S1x512_S16384x512_0_1 _ (ix2 R j) (ix2 (0 : Fin 1) j) (fun a => by
    match a with
    | ⟨0, _⟩ => rfl
    | ⟨1, _⟩ => rfl)]
  rw [broadcastInDim_apply ![1] bcast_S512_S1x512_1 v (ix2 (0 : Fin 1) j) (ix1 j) (fun a => by
    match a with
    | ⟨0, _⟩ => rfl)]

/-- A column [16384, 1] repeated along the rows reads, at (R, j), the column's entry of row R. -/
theorem column_apply (c : FVec Ideal S16384x1 .f32) (R : Fin 16384) (j : Fin 512) :
    broadcastInDim S16384x512 ![0, 1] bcast_S16384x1_S16384x512_0_1 c (ix2 R j) = c (ix2 R (0 : Fin 1)) :=
  broadcastInDim_apply ![0, 1] bcast_S16384x1_S16384x512_0_1 c (ix2 R j) (ix2 R (0 : Fin 1)) (fun a => by
    match a with
    | ⟨0, _⟩ => rfl
    | ⟨1, _⟩ => rfl)

/-- A vector [16384] made a column [16384, 1] reads, at (R, u), the vector's entry R. -/
theorem ascolumn_apply (v : FVec Ideal S16384 .f32) (R : Fin 16384) (u : Fin 1) :
    broadcastInDim S16384x1 ![0] bcast_S16384_S16384x1_0 v (ix2 R u) = v (ix1 R) :=
  broadcastInDim_apply ![0] bcast_S16384_S16384x1_0 v (ix2 R u) (ix1 R) (fun a => by
    match a with
    | ⟨0, _⟩ => rfl)

/-! ## The gates -/

/-- The dimension numbers of the program's two products are those of a plain matrix product. -/
theorem plain : Cert.PlainDot.IsPlain dot_S16384x512_S512x2048_S16384x2048_1_0_0_1_n_n := ⟨rfl, rfl, rfl, rfl, rfl, rfl⟩

/-- The gate pre-activations at (R, n): row R of x times column n of W_i, plus row R of h times column n of W_h,
    plus the bias entry n. -/
theorem rGates_rows (x h : FVec Ideal S16384x512 .f32) (wi wh : FVec Ideal S512x2048 .f32) (b : FVec Ideal S2048 .f32)
    (R : Fin 16384) (n : Fin 2048) :
    rGates (F := Ideal) x h wi wh b (ix2 R n) = rowGate x h wi wh b R n := by
  unfold rGates rowGate gate
  exact Cert.HostRows.bias_rows _ b bcast_S2048_S1x2048_1 bcast_S1x2048_S16384x2048_0_1
    (fun p q => (∑ k : Fin 512, x (ix2 p k) * wi (ix2 k q)) + ∑ k : Fin 512, h (ix2 p k) * wh (ix2 k q))
    (fun p q => by
      rw [addf_apply,
        Cert.HostRows.dot_rows _ plain none x wi (fun p k => x (ix2 p k)) (fun _ _ => rfl) p q,
        Cert.HostRows.dot_rows _ plain none h wh (fun p k => h (ix2 p k)) (fun _ _ => rfl) p q]) R n

/-! ## The logistic function and the slices -/

/-- The program's logistic function at an entry: 1 / (1 + e^(-z)) of the entry, the two ones being the repeated
    constant with the word of 1. -/
theorem rLogistic_apply (z : FVec Ideal S16384x512 .f32) (i : S16384x512.Idx) :
    rLogistic (F := Ideal) z i = sgR (z i) := by
  unfold rLogistic sgR
  rw [hostDivf_apply, splat_apply, addf_apply, splat_apply, hostExp_apply, hostNegf_apply]

/-- The slice of the 512 gate columns that start at column o reads, at (R, j), the gates at (R, o + j). -/
theorem slice_col (o : Nat) (ho : o + 512 ≤ 2048) (g : FVec Ideal S16384x2048 .f32)
    (h : S16384x2048.Slices ![0, o] S16384x512) (R : Fin 16384) (j : Fin 512) :
    extractStridedSlice S16384x512 ![0, o] g h (ix2 R j) = g (ix2 R (col o ho j)) :=
  slice2_axis1_apply o g h R j (col o ho j) rfl

/-! ## The cell state and the hidden state -/

/-- The new cell state at (R, j), for gates described by their rows: the forget gate's logistic times the old cell
    entry plus the input gate's logistic times tanh of the candidate. -/
theorem rCell_rows (g : FVec Ideal S16384x2048 .f32) (cp : FVec Ideal S16384x512 .f32) (gr : Fin 16384 → Fin 2048 → EReal)
    (hg : ∀ R n, g (ix2 R n) = gr R n) (R : Fin 16384) (j : Fin 512) :
    rCell (F := Ideal) g cp (ix2 R j) = cellR (gr R) (fun k => cp (ix2 R k)) j := by
  unfold rCell cellR
  rw [addf_apply, mulf_apply, mulf_apply, rLogistic_apply, rLogistic_apply, hostTanh_apply,
    slice_col 512 (by omega) g _ R j, slice_col 0 (by omega) g _ R j, slice_col 1024 (by omega) g _ R j,
    hg, hg, hg]

/-- The hidden state at (R, j): the output gate's logistic times tanh of the new cell entry. -/
theorem rHid_rows (g : FVec Ideal S16384x2048 .f32) (cp : FVec Ideal S16384x512 .f32) (gr : Fin 16384 → Fin 2048 → EReal)
    (hg : ∀ R n, g (ix2 R n) = gr R n) (R : Fin 16384) (j : Fin 512) :
    rHid (F := Ideal) g cp (ix2 R j) = hidR (gr R) (fun k => cp (ix2 R k)) j := by
  unfold rHid hidR
  rw [mulf_apply, rLogistic_apply, hostTanh_apply, slice_col 1536 (by omega) g _ R j, hg,
    rCell_rows g cp gr hg R j]

/-! ## The mean, the divisor and the variance of a row -/

/-- The sum along row R from the repeated zero constant: the word of 0 plus the sum of the row. -/
theorem rowSum_apply (a : FVec Ideal S16384x512 .f32) (R : Fin 16384) :
    Host.reduceAdd (F := Ideal) a (constant S_ .f32 0x00000000#32) reducesTo_S16384x512_S16384_d1 h_S_ (ix1 R)
      = wZero + ∑ k : Fin 512, a (ix2 R k) :=
  Cert.RowLayer.hostRowSum_apply a (constant (F := Ideal) S_ .f32 0x00000000#32) reducesTo_S16384x512_S16384_d1 (by decide) h_S_ R

/-- The mean column at (R, u): the row's sum from zero, divided by the word of 512. -/
theorem rMean_rows (hh : FVec Ideal S16384x512 .f32) (R : Fin 16384) (u : Fin 1) :
    rMean (F := Ideal) hh (ix2 R u) = meanR (fun k => hh (ix2 R k)) := by
  unfold rMean meanR
  rw [hostDivf_apply, ascolumn_apply, rowSum_apply, splat_apply]

/-- The float 512 is the real number 512. -/
theorem w512_eq : w512 = ((512 : ℝ) : EReal) := by
  simp [Ideal.ofBits, Ideal.ieee, -EReal.coe_mul]; norm_num

/-- The variance's divisor: the float 512 less the integer 0 read exactly, so 512. -/
theorem rDivisor_apply (i : S_.Idx) : rDivisor (F := Ideal) i = w512 := by
  show w512 - (((0#32 : BitVec 32).toInt : ℝ) : EReal) = w512
  simp

/-- The divisor is positive, so the test "divisor > 0" answers 1. -/
theorem divisor_pos (i : S_.Idx) :
    cmpf .ogt (rDivisor (F := Ideal)) (constant (F := Ideal) S_ .f32 0x00000000#32) i = 1#1 := by
  rw [cmpf_apply, rDivisor_apply, constant_apply, Ideal.ofBits_zero_f32, w512_eq]
  have h : (0 : EReal) < ((512 : ℝ) : EReal) := EReal.coe_pos.2 (by norm_num)
  show Ideal.cmp .ogt ((512 : ℝ) : EReal) 0 = 1#1
  simp [Ideal.cmp, h]

/-- The variance column at (R, u): the test selects the quotient, which is the row's sum of squared deviations from
    its mean, from zero, divided by 512. -/
theorem rVar_rows (hh : FVec Ideal S16384x512 .f32) (R : Fin 16384) (u : Fin 1) :
    rVar (F := Ideal) hh (ix2 R u) = varR (fun k => hh (ix2 R k)) := by
  unfold rVar varR
  rw [select_apply, broadcastInDim_apply ![] bcast_S_S16384x1 _ (ix2 R u) ix0 (fun a => a.elim0), divisor_pos, select_one,
    hostDivf_apply, ascolumn_apply, rowSum_apply,
    broadcastInDim_apply ![] bcast_S_S16384x1 (rDivisor (F := Ideal)) (ix2 R u) ix0 (fun a => a.elim0), rDivisor_apply]
  refine congrArg (fun t => Ideal.div (wZero + t) w512) (Finset.sum_congr rfl fun k _ => ?_)
  rw [mulf_apply, subf_apply, column_apply, rMean_rows]

/-! ## The normalised row -/

/-- The normalised hidden state at (R, j): the entry less the row's mean, times the reciprocal square root of the
    row's variance plus epsilon, times the weight's entry j, plus the bias's entry j. -/
theorem rNorm_rows (hh : FVec Ideal S16384x512 .f32) (lw lb : FVec Ideal S512 .f32) (R : Fin 16384) (j : Fin 512) :
    rNorm (F := Ideal) hh lw lb (ix2 R j)
      = normR (fun k => hh (ix2 R k)) (fun k => lw (ix1 k)) (fun k => lb (ix1 k)) j := by
  unfold rNorm normR
  rw [addf_apply, mulf_apply, mulf_apply, subf_apply, rowvec_apply, rowvec_apply, column_apply, column_apply,
    rMean_rows, hostRsqrt_apply, addf_apply, rVar_rows, splat_apply]

/-! ## The two results -/

/-- The reference's new cell state is, entry by entry, the row arithmetic: entry (R, j) is the cell entry j of the
    row whose gates are row R's gate pre-activations and whose old cell entries are row R of cp. -/
theorem rCell_eq (x h cp : FVec Ideal S16384x512 .f32) (wi wh : FVec Ideal S512x2048 .f32) (b : FVec Ideal S2048 .f32) :
    rCell (F := Ideal) (rGates x h wi wh b) cp = cellArr x h cp wi wh b := by
  funext i
  obtain ⟨R, j, rfl⟩ : ∃ (R : Fin 16384) (j : Fin 512), i = ix2 R j := ⟨i 0, i 1, eq_ix2 i⟩
  rw [cellArr_ix2]
  exact rCell_rows _ cp (rowGate x h wi wh b) (rGates_rows x h wi wh b) R j

/-- The reference's normalised hidden state is, entry by entry, the row arithmetic: entry (R, j) is entry j of the
    normalisation of the hidden row computed from row R's gates and row R of cp. -/
theorem rNorm_eq (x h cp : FVec Ideal S16384x512 .f32) (wi wh : FVec Ideal S512x2048 .f32) (b : FVec Ideal S2048 .f32) (lw lb : FVec Ideal S512 .f32) :
    rNorm (F := Ideal) (rHid (rGates x h wi wh b) cp) lw lb = normArr x h cp wi wh b lw lb := by
  funext i
  obtain ⟨R, j, rfl⟩ : ∃ (R : Fin 16384) (j : Fin 512), i = ix2 R j := ⟨i 0, i 1, eq_ix2 i⟩
  rw [normArr_ix2, rNorm_rows]
  exact congrArg (fun r => normR r (fun k => lw (ix1 k)) (fun k => lb (ix1 k)) j)
    (funext fun k => rHid_rows _ cp (rowGate x h wi wh b) (rGates_rows x h wi wh b) R k)

end Cert.ReferenceIdeal.Rows

end
-- ==== Proof.FiniteInputs.lean ====
/-
  The precondition "every float input is finite", read back at the extended reals.

  The printed predicate tests each of the eight input arrays the same way: take the absolute value of every entry,
  compare it strictly below the float whose word is 0x7F800000, fold the resulting bits over the whole array by
  "and" starting from 1, and finally "and" the eight one-bit answers together. At the ideal reading a float is an
  extended real, the word 0x7F800000 denotes +∞, and |x| is max x (-x). So the predicate being 1 says
  max x (-x) < +∞ for every entry x of every array. Of the three kinds of extended real, -∞ and +∞ both have
  absolute value +∞, which is not strictly below +∞; what remains is a real number. Hence every entry of every
  input array is (the image of) a real number, which is what the later algebra over the reals needs.

  The argument has three layers, proved in this order below:
    1. one entry:  max x (-x) < ⊤  gives a real r with x = r;
    2. one array (of any shape): the "and"-fold of the entrywise tests being 1 gives layer 1 at every index;
    3. the whole predicate: a conjunction of one-bit words is 1 only if each conjunct is 1, so layer 2 applies to
       each of the eight arrays.
-/
import proofs.«141113_j65618510348829_2_alg».proof.Pre_finite_inputs
import proofs.«141113_j65618510348829_2_alg».proof.Proof.Gen.Pre_finite_inputs
import Idealize.ShloMosaic.PureOps.Ideal
import Idealize.ShloMosaic.Lib.ReduceAll
import Idealize.ShloMosaic.Lib.ValueIdx

namespace Cert.FiniteInputs
open Idealize.ShloMosaic Cert.Pre_finite_inputs

/-- The rank-0 shape has exactly one index (a function out of the empty set of axes), so a reduction into it is a
    reduction over all axes. -/
instance subsingleton_scalar_idx : Subsingleton S_.Idx := ⟨fun a b => funext fun d => d.elim0⟩

/-- The single-precision word 0x7F800000 (sign 0, exponent all ones, fraction 0) denotes +∞. -/
theorem inf_word : Ideal.ofBits .f32 0x7F800000#32 = (⊤ : EReal) := by
  simp [Ideal.ofBits, Ideal.ieee]

/-- An extended real whose absolute value max x (-x) lies strictly below +∞ is a real number: for x = -∞ the
    maximum is -(-∞) = +∞, for x = +∞ it is x itself, and neither is strictly below +∞. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the test: if the comparison "|x| strictly below the float with word 0x7F800000" answers 1, then x
    is a real number. The comparison is the order's strict inequality turned into a bit, and the word is +∞. -/
theorem real_of_test (x : EReal)
    (h : Ideal.cmp .olt (max x (-x)) (Ideal.ofBits .f32 0x7F800000#32) = 1#1) : ∃ r : ℝ, x = (r : EReal) := by
  rw [inf_word] at h
  apply real_of_abs_lt_top
  by_contra hn
  simp [Ideal.cmp, hn] at h

/-- One array, of any shape s: if the entrywise test |a i| < +∞, folded by "and" over all axes of s from any
    initial word, is 1, then every entry of a is a real number. A fold by "and" is 1 only if every word folded is
    1; the word at index i is the test of layer 1 on a i. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1)
    (h : Host.reduce IntOp.andi
          (cmpf .olt (Host.absf a) (broadcastInDim s ![] hb (constant (F := Ideal) S_ .f32 0x7F800000#32)))
          init hr hu ValueIdx.ix0 = 1#1) :
    ∀ i, ∃ r : ℝ, a i = (r : EReal) := by
  intro i
  -- every word folded is 1, in particular the one at index i
  have hi := Host.reduce_andi_all _ init hr hu ValueIdx.ix0 h i
  -- that word, unfolded: the entrywise operations act at index i, the absolute value is max x (-x), and the
  -- broadcast of the rank-0 constant reads the one float the word 0x7F800000 denotes, whatever the index
  change Ideal.cmp .olt (max (a i) (-(a i))) (Ideal.ofBits .f32 0x7F800000#32) = 1#1 at hi
  exact real_of_test (a i) hi

variable [Cert.Pre_finite_inputs.Facts]

/-- The precondition makes every entry of every input array a real number. The predicate's one bit is the "and" of
    eight bits, one per array; it is 1 only if all eight are; and each of those is the all-axes fold of the
    entrywise test, to which real_of_all applies. -/
theorem real_of_pre
    (a0 a1 a2 : FVec Ideal S16384x512 .f32) (a3 a4 : FVec Ideal S512x2048 .f32) (a5 : FVec Ideal S2048 .f32) (a6 a7 : FVec Ideal S512 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) := by
  have h0 := congrFun h ValueIdx.ix0
  dsimp only [fn, fn_part1, fn_part2, andi] at h0
  simp only [IntOp.andi_eq_one] at h0
  obtain ⟨⟨⟨⟨⟨⟨⟨e0, e1⟩, e2⟩, e3⟩, e4⟩, e5⟩, e6⟩, e7⟩ := h0
  exact ⟨real_of_all a0 _ _ _ _ e0, real_of_all a1 _ _ _ _ e1, real_of_all a2 _ _ _ _ e2,
    real_of_all a3 _ _ _ _ e3, real_of_all a4 _ _ _ _ e4, real_of_all a5 _ _ _ _ e5,
    real_of_all a6 _ _ _ _ e6, real_of_all a7 _ _ _ _ e7⟩

end Cert.FiniteInputs
-- ==== Proof.lean ====
/-
  An LSTM cell followed by a layer normalisation, computed by a tiled program and by a plain array program: both leave
  the same two arrays, as extended reals, whenever every float input is finite.

  The tiled program (`KernelIdeal`) stacks the input weights above the recurrent weights, and then, for each block of
  512 rows, multiplies the joined rows `[x | h]` by the stacked weights, adds the bias, writes the logistic function as
  `½ · (1 + tanh (½ · z))`, forms the new cell state `c = σ(f) · c_prev + σ(i) · tanh g` and the hidden state
  `h = σ(o) · tanh c`, and normalises each hidden row with the mean `(∑ h) · (1/512)` and the variance
  `(∑ h²) · (1/512) − mean²`. The array program (`ReferenceIdeal`) adds the two products `x · W_i` and `h · W_h`, writes the
  logistic function as `1 / (1 + e^(−z))`, takes the mean as `(∑ h) / 512` and the variance as the mean of the squared
  deviations from it.

  The two agree for these reasons. A sum over the joined row is the sum of its two halves, so the gate
  pre-activations are the same extended reals with no assumption. For the rest finiteness is used: finite inputs make
  every gate pre-activation a real number, and for a real `z` the two spellings of the logistic function are one real
  number; the hidden entries are then real, and for a row of reals the mean of the squares less the squared mean is the
  mean of the squared deviations (and multiplying by the word 1/512, a power of two, is dividing by 512). The inverse
  square root and the small `ε` are applied to equal arguments and are never evaluated.

  The pieces: `RowSpec` / `ArraySpec` state one row's arithmetic in both spellings and the two results as functions of
  whole arrays; `RowMath` proves the two spellings equal on reals; `FiniteInputs` reads "every entry is real" out of the
  precondition; `RefRun` / `RefRows` run the array program and read its results entry by entry; `KernelRows`,
  `KernelBlock`, `KernelHost`, `KernelArray` read the tiled unit's arithmetic row by row, a block against the arrays,
  the arrays the unit is handed, and the 32 blocks as the whole arrays.
-/
import proofs.«141113_j65618510348829_2_alg».proof.Defs
import proofs.«141113_j65618510348829_2_alg».proof.Proof.Gen.Kernel
import proofs.«141113_j65618510348829_2_alg».proof.Proof.Gen.Kernel.Skeleton
import proofs.«141113_j65618510348829_2_alg».proof.Proof.Gen.Kernel.Launch
import proofs.«141113_j65618510348829_2_alg».proof.Proof.Gen.Kernel.Points
import proofs.«141113_j65618510348829_2_alg».proof.Proof.Gen.Kernel.Frame
import proofs.«141113_j65618510348829_2_alg».proof.Proof.Gen.KernelIdeal
import proofs.«141113_j65618510348829_2_alg».proof.Proof.Gen.KernelIdeal.Skeleton
import proofs.«141113_j65618510348829_2_alg».proof.Proof.Gen.KernelIdeal.Launch
import proofs.«141113_j65618510348829_2_alg».proof.Proof.Gen.KernelIdeal.Points
import proofs.«141113_j65618510348829_2_alg».proof.Proof.Gen.KernelIdeal.Frame
import proofs.«141113_j65618510348829_2_alg».proof.Proof.Gen.KernelIdeal.Value
import proofs.«141113_j65618510348829_2_alg».proof.Proof.Gen.ReferenceIdeal
import proofs.«141113_j65618510348829_2_alg».proof.Proof.Gen.Pre_finite_inputs
import proofs.«141113_j65618510348829_2_alg».proof.Proof.KernelArray
import proofs.«141113_j65618510348829_2_alg».proof.Proof.RefRun
import proofs.«141113_j65618510348829_2_alg».proof.Proof.RefRows
import proofs.«141113_j65618510348829_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level tiled program runs and leaves its arguments unchanged. -/
theorem frame_kernel : Cert.frame_Kernel := fun m ρ _ => Cert.Kernel.Gen.frame m ρ

/-- The tiled program at the extended reals runs and leaves its arguments unchanged. -/
theorem frame_kernelIdeal : Cert.frame_KernelIdeal := fun m ρ _ => Cert.KernelIdeal.Gen.frame m ρ

/-- The array program runs and leaves its arguments unchanged: its run, the two results dropped. -/
theorem frame_referenceIdeal : Cert.frame_ReferenceIdeal := fun m ρ _ =>
  (θ_run Cert.ReferenceIdeal.defs _ _).mono (fun _ h c => (h c).2.2) (Cert.ReferenceIdeal.HostRun.run (F := Ideal) m ρ)

/-- Nothing of the tiled program was rewritten on the way to the extended reals. -/
theorem preserves : Cert.preserves_Kernel_KernelIdeal := trivial

/-- Under the precondition every entry of the inputs, the weights and the bias is a real number. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.RealArgs m c := by
  obtain ⟨h0, h1, h2, h3, h4, h5, -, -⟩ := Cert.FiniteInputs.real_of_pre _ _ _ _ _ _ _ _ (hpre c)
  exact ⟨h0, h1, h2, h3, h4, h5⟩

/-- From memories agreeing on the arguments, the tiled program and the array program both end with the normalised hidden
    state `normArr` and the cell state `cellArr` of the arguments in their two result arrays. -/
theorem algebraic : Cert.algebraic_KernelIdeal_ReferenceIdeal := by
  intro m ρ m' ρ' hpre hagree
  refine ⟨_, _, Cert.KernelIdeal.Final.run m ρ (real_args m hpre), ?_⟩
  refine (θ_run Cert.ReferenceIdeal.defs _ _).mono (fun _ h c => ⟨(h c).1.trans ?_, (h c).2.1.trans ?_, (h c).2.2⟩)
    (Cert.ReferenceIdeal.HostRun.run (F := Ideal) m' ρ')
  · rw [Cert.ReferenceIdeal.Rows.rNorm_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
  · rw [Cert.ReferenceIdeal.Rows.rCell_eq, (hagree c).1, (hagree c).2.1, (hagree c).2.2.1, (hagree c).2.2.2.1,
      (hagree c).2.2.2.2.1, (hagree c).2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
